-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_v24) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S1024x2 : Shape := ⟨2, ![1024, 2]⟩
abbrev S2 : Shape := ⟨1, ![2]⟩
abbrev S1024x1024 : Shape := ⟨2, ![1024, 1024]⟩
abbrev S1024 : Shape := ⟨1, ![1024]⟩
abbrev S16384 : Shape := ⟨1, ![16384]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x2 : S_.BroadcastsInDim S1024x2 (![] : Fin 0 → Fin S1024x2.rank)
  reducesTo_S1024x2_S_d0_1 : S1024x2.ReducesTo [0, 1] S_
  bcast_S_S2 : S_.BroadcastsInDim S2 (![] : Fin 0 → Fin S2.rank)
  reducesTo_S2_S_d0 : S2.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024x1024 .f32) (main_arg6 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S16384x1024 .f32) (main_arg1 : FVec F S1024x2 .f32) (main_arg2 : FVec F S2 .f32) (main_arg3 : FVec F S1024x1024 .f32) (main_arg4 : FVec F S1024 .f32) (main_arg5 : FVec F S1024x1024 .f32) (main_arg6 : FVec F S1024 .f32) (main_arg7 : IVec S16384 32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1024x2 .f32 := Host.absf main_arg1
  let main_cst_0 : FVec F S_ .f32 := constant S_ .f32 0x7F800000#32
  let main_v5 : FVec F S1024x2 .f32 := broadcastInDim S1024x2 ![] bcast_S_S1024x2 main_cst_0
  let main_v6 : IVec S1024x2 1 := cmpf .olt main_v4 main_v5
  let main_c_1 : IVec S_ 1 := constantI S_ 1 1#1
  let main_v7 : IVec S_ 1 := (fun x v => Host.reduce IntOp.andi x v reducesTo_S1024x2_S_d0_1 h_S_) main_v6 main_c_1
  let main_v8 : IVec S_ 1 := andi main_v3 main_v7
  let main_v9 : FVec F S2 .f32 := Host.absf main_arg2
  let main_cst_2 : FVec F S_ .f32 := constant S_ .f32 0x7F800000#32
  let main_v10 : FVec F S2 .f32 := broadcastInDim S2 ![] bcast_S_S2 main_cst_2
  let main_v11 : IVec S2 1 := cmpf .olt main_v9 main_v10
  let main_c_3 : IVec S_ 1 := constantI S_ 1 1#1
  let main_v12 : IVec S_ 1 := (fun x v => Host.reduce IntOp.andi x v reducesTo_S2_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Kernel.lean ====
abbrev S16384x1024 : Shape := ⟨2, ![16384, 1024]⟩
abbrev S1024x2 : Shape := ⟨2, ![1024, 2]⟩
abbrev S2 : Shape := ⟨1, ![2]⟩
abbrev S1024x1024 : Shape := ⟨2, ![1024, 1024]⟩
abbrev S1024 : Shape := ⟨1, ![1024]⟩
abbrev S16384 : Shape := ⟨1, ![16384]⟩
abbrev S16384x1 : Shape := ⟨2, ![16384, 1]⟩
abbrev S16384x2 : Shape := ⟨2, ![16384, 2]⟩
abbrev S1024x1 : Shape := ⟨2, ![1024, 1]⟩
abbrev S1x2 : Shape := ⟨2, ![1, 2]⟩
abbrev S1x1024 : Shape := ⟨2, ![1, 1024]⟩

abbrev nBuf : Space → Nat
  | .hbm => 16
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S1024x2, .f32⟩
  | .hbm, ⟨2, _⟩ => ⟨S2, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S16384, .i32⟩
  | .hbm, ⟨8, _⟩ => ⟨S1024x2, .bf16⟩
  | .hbm, ⟨9, _⟩ => ⟨S1024x1024, .bf16⟩
  | .hbm, ⟨10, _⟩ => ⟨S1024x1024, .bf16⟩
  | .hbm, ⟨11, _⟩ => ⟨S16384x1, .i32⟩
  | .hbm, ⟨12, _⟩ => ⟨S16384x1024, .f32⟩
  | .hbm, ⟨13, _⟩ => ⟨S16384x2, .f32⟩
  | .hbm, ⟨14, _⟩ => ⟨S16384x1, .f32⟩
  | .hbm, ⟨15, _⟩ => ⟨S16384, .f32⟩
  | .local _ .vmem, ⟨0, _⟩ => ⟨S1024x1024, .f32⟩
  | .local _ .vmem, ⟨1, _⟩ => ⟨S1024x1024, .f32⟩
  | .local _ .vmem, ⟨2, _⟩ => ⟨S1024x1, .i32⟩
  | .local _ .vmem, ⟨3, _⟩ => ⟨S1024x1, .i32⟩
  | .local _ .vmem, ⟨4, _⟩ => ⟨S1024x2, .bf16⟩
  | .local _ .vmem, ⟨5, _⟩ => ⟨S2, .f32⟩
  | .local _ .vmem, ⟨6, _⟩ => ⟨S1024x1024, .bf16⟩
  | .local _ .vmem, ⟨7, _⟩ => ⟨S1024, .f32⟩
  | .local _ .vmem, ⟨8, _⟩ => ⟨S1024x1024, .bf16⟩
  | .local _ .vmem, ⟨9, _⟩ => ⟨S1024, .f32⟩
  | .local _ .vmem, ⟨10, _⟩ => ⟨S1024x1024, .f32⟩
  | .local _ .vmem, ⟨11, _⟩ => ⟨S1024x1024, .f32⟩
  | .local _ .vmem, ⟨12, _⟩ => ⟨S1024x2, .f32⟩
  | .local _ .vmem, ⟨13, _⟩ => ⟨S1024x2, .f32⟩
  | .local _ .vmem, ⟨14, _⟩ => ⟨S1024x1, .f32⟩
  | .local _ .vmem, ⟨15, _⟩ => ⟨S1024x1, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x2 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  bitsLt_bf16_f32 : FTy.bits .bf16 < FTy.bits .f32
  bcast_S16384_S16384x1_0 : S16384.BroadcastsInDim S16384x1 (![0] : Fin 1 → Fin S16384x1.rank)
  inb_S1024x1024_S1024x1024_0_0 : ∀ a, (![0, 0] : Fin 2 → Nat) a + S1024x1024.size a ≤ S1024x1024.size a
  h_S1024x1024 : 0 < S1024x1024.numel
  inb_S1024x2_S1024x2_0_0 : ∀ a, (![0, 0] : Fin 2 → Nat) a + S1024x2.size a ≤ S1024x2.size a
  h_S1024x2 : 0 < S1024x2.numel
  shapeCasts_S1024x2_S1024x2 : S1024x2.ShapeCasts S1024x2
  inb_S2_S2_0 : ∀ a, (![0] : Fin 1 → Nat) a + S2.size a ≤ S2.size a
  h_S2 : 0 < S2.numel
  shapeCasts_S2_S1x2 : S2.ShapeCasts S1x2
  broadcasts_S1x2_S1024x2 : S1x2.Broadcasts S1024x2
  reduces_S1024x2_S1024 : S1024x2.Reduces [1] S1024
  shapeCasts_S1024_S1024x1 : S1024.ShapeCasts S1024x1
  broadcasts_S1024x1_S1024x2 : S1024x1.Broadcasts S1024x2
  slices_S1024x2_o0_0_S1024x1 : S1024x2.Slices ![0, 0] S1024x1
  slices_S1024x2_o0_1_S1024x1 : S1024x2.Slices ![0, 1] S1024x1
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1024x1024 : S1x1024.Broadcasts S1024x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x1024 : S1024x1.Broadcasts S1024x1024
  reduces_S1024x1024_S1024 : S1024x1024.Reduces [1] S1024
  iota_S1024x1_d0_w32 : S1024x1.Iotas .tc 32 [0]
  shapeCasts_S16384x1_S16384 : S16384x1.ShapeCasts S16384
  dot_S1024x1024_S1024x2_S1024x2_1_0_0_1_n_n_wf : DotDims.WF S1024x1024 S1024x2 S1024x2 [1] [0] [0] [1] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S16384x1.size a
  hwx0_1 : ∀ i : grid0.Coords, EltTy.bits .i32 = 32 ∨ (Rect.block (s := S16384x1) S1024x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x2.size a ≤ S1024x2.size a
  hwx0_2 : ∀ i : grid0.Coords, EltTy.bits .bf16 = 32 ∨ (Rect.block (s := S1024x2) S1024x2.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2.size a ≤ S2.size a
  hwx0_3 : ∀ i : grid0.Coords, EltTy.bits .f32 = 32 ∨ (Rect.block (s := S2) S2.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024.size a ≤ S1024.size a
  hwx0_5 : ∀ i : grid0.Coords, EltTy.bits .f32 = 32 ∨ (Rect.block (s := S1024) S1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S1024x1024.size a
  hwx0_6 : ∀ i : grid0.Coords, EltTy.bits .bf16 = 32 ∨ (Rect.block (s := S1024x1024) S1024x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024.size a ≤ S1024.size a
  hwx0_7 : ∀ i : grid0.Coords, EltTy.bits .f32 = 32 ∨ (Rect.block (s := S1024) S1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x1024.size a ≤ S16384x1024.size a
  hwx0_8 : ∀ i : grid0.Coords, EltTy.bits .f32 = 32 ∨ (Rect.block (s := S16384x1024) S1024x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x2.size a ≤ S16384x2.size a
  hwx0_9 : ∀ i : grid0.Coords, EltTy.bits .f32 = 32 ∨ (Rect.block (s := S16384x2) S1024x2.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1024x1.size a ≤ S16384x1.size a
  hwx0_10 : ∀ i : grid0.Coords, EltTy.bits .f32 = 32 ∨ (Rect.block (s := S16384x1) S1024x1.size (cc0_transform_10 i) (hinb0_10 i)).WholeWords (EltTy.packing .f32)

variable [Facts₀]

def dot_S1024x1024_S1024x2_S1024x2_1_0_0_1_n_n : DotDims S1024x1024 S1024x2 S1024x2 where
  lhsContracting := [1]
  rhsContracting := [0]
  lhsNonContracting := [0]
  rhsNonContracting := [1]
  lhsBatch := []
  rhsBatch := []
  wf := dot_S1024x1024_S1024x2_S1024x2_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x2.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S2.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1024x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4_0) S1024x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v4_1) S1024x2.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v4_2) S1024x1.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S1024x2 : Shape := ⟨2, ![1024, 2]⟩
abbrev S2 : Shape := ⟨1, ![2]⟩
abbrev S1024x1024 : Shape := ⟨2, ![1024, 1024]⟩
abbrev S1024 : Shape := ⟨1, ![1024]⟩
abbrev S16384 : Shape := ⟨1, ![16384]⟩
abbrev S16384x2 : Shape := ⟨2, ![16384, 2]⟩
abbrev S1x2 : Shape := ⟨2, ![1, 2]⟩
abbrev S_ : Shape := ⟨0, ![]⟩
abbrev S16384x1 : Shape := ⟨2, ![16384, 1]⟩
abbrev S1x1024 : Shape := ⟨2, ![1, 1024]⟩

abbrev nBuf : Space → Nat
  | .hbm => 68
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x2, .f32⟩
  | .hbm, ⟨2, _⟩ => ⟨S2, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S16384, .i32⟩
  | .hbm, ⟨8, _⟩ => ⟨S16384x2, .f32⟩
  | .hbm, ⟨9, _⟩ => ⟨S1x2, .f32⟩
  | .hbm, ⟨10, _⟩ => ⟨S16384x2, .f32⟩
  | .hbm, ⟨11, _⟩ => ⟨S16384x2, .f32⟩
  | .hbm, ⟨12, _⟩ => ⟨S_, .f32⟩
  | .hbm, ⟨13, _⟩ => ⟨S16384, .f32⟩
  | .hbm, ⟨14, _⟩ => ⟨S_, .f32⟩
  | .hbm, ⟨15, _⟩ => ⟨S16384, .f32⟩
  | .hbm, ⟨16, _⟩ => ⟨S16384, .f32⟩
  | .hbm, ⟨17, _⟩ => ⟨S16384x1, .f32⟩
  | .hbm, ⟨18, _⟩ => ⟨S16384x2, .f32⟩
  | .hbm, ⟨19, _⟩ => ⟨S16384x2, .f32⟩
  | .hbm, ⟨20, _⟩ => ⟨S16384x2, .f32⟩
  | .hbm, ⟨21, _⟩ => ⟨S_, .f32⟩
  | .hbm, ⟨22, _⟩ => ⟨S16384, .f32⟩
  | .hbm, ⟨23, _⟩ => ⟨S16384x1, .f32⟩
  | .hbm, ⟨24, _⟩ => ⟨S16384x2, .f32⟩
  | .hbm, ⟨25, _⟩ => ⟨S16384x2, .f32⟩
  | .hbm, ⟨26, _⟩ => ⟨S16384x1024, .f32⟩
  | .hbm, ⟨27, _⟩ => ⟨S1x1024, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S16384x1024, .f32⟩
  | .hbm, ⟨32, _⟩ => ⟨S16384x1024, .f32⟩
  | .hbm, ⟨33, _⟩ => ⟨S16384x1, .i32⟩
  | .hbm, ⟨34, _⟩ => ⟨S16384x1, .f32⟩
  | .hbm, ⟨35, _⟩ => ⟨S16384x1024, .f32⟩
  | .hbm, ⟨36, _⟩ => ⟨S16384x1024, .f32⟩
  | .hbm, ⟨37, _⟩ => ⟨S_, .f32⟩
  | .hbm, ⟨38, _⟩ => ⟨S16384, .f32⟩
  | .hbm, ⟨39, _⟩ => ⟨S16384x1024, .f32⟩
  | .hbm, ⟨40, _⟩ => ⟨S1x1024, .f32⟩
  | .hbm, ⟨41, _⟩ => ⟨S16384x1024, .f32⟩
  | .hbm, ⟨42, _⟩ => ⟨S16384x1024, .f32⟩
  | .hbm, ⟨43, _⟩ => ⟨S16384x1, .f32⟩
  | .hbm, ⟨44, _⟩ => ⟨S16384x1, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S16384, .i32⟩
  | .hbm, ⟨56, _⟩ => ⟨S_, .i32⟩
  | .hbm, ⟨57, _⟩ => ⟨S16384, .i32⟩
  | .hbm, ⟨58, _⟩ => ⟨S16384, .i1⟩
  | .hbm, ⟨59, _⟩ => ⟨S16384x1, .i1⟩
  | .hbm, ⟨60, _⟩ => ⟨S16384x1024, .i1⟩
  | .hbm, ⟨61, _⟩ => ⟨S16384x1024, .f32⟩
  | .hbm, ⟨62, _⟩ => ⟨S_, .f32⟩
  | .hbm, ⟨63, _⟩ => ⟨S16384, .f32⟩
  | .hbm, ⟨64, _⟩ => ⟨S16384, .i1⟩
  | .hbm, ⟨65, _⟩ => ⟨S16384x1, .i1⟩
  | .hbm, ⟨66, _⟩ => ⟨S16384x1024, .i1⟩
  | .hbm, ⟨67, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_call0_cst : Ref sig .tc := ⟨.hbm, 30, rfl⟩
abbrev main_call0_v0 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_2 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_c : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_call1_v0 : Ref sig .tc := ⟨.hbm, 60, rfl⟩
abbrev main_v45 : Ref sig .tc := ⟨.hbm, 61, rfl⟩
abbrev main_cst_3 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_call2_v0 : Ref sig .tc := ⟨.hbm, 66, rfl⟩
abbrev main_v49 : Ref sig .tc := ⟨.hbm, 67, rfl⟩

abbrev nD : Nat := 1
abbrev τ : Topo := Topo.v7x

variable {F : FTy → Type} [FloatOps F]

class Facts₀ : Prop where
  bcast_S2_S1x2_1 : S2.BroadcastsInDim S1x2 (![1] : Fin 1 → Fin S1x2.rank)
  bcast_S1x2_S16384x2_0_1 : S1x2.BroadcastsInDim S16384x2 (![0, 1] : Fin 2 → Fin S16384x2.rank)
  reducesTo_S16384x2_S16384_d1 : S16384x2.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x2_0_1 : S16384x1.BroadcastsInDim S16384x2 (![0, 1] : Fin 2 → Fin S16384x2.rank)
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  bcast_S_S16384x1024 : S_.BroadcastsInDim S16384x1024 (![] : Fin 0 → Fin S16384x1024.rank)
  bcast_S16384x1_S16384x1024_0_1 : S16384x1.BroadcastsInDim S16384x1024 (![0, 1] : Fin 2 → Fin S16384x1024.rank)
  reducesTo_S16384x1024_S16384_d1 : S16384x1024.ReducesTo [1] S16384
  slices_S16384x2_S16384x1_0_0 : S16384x2.Slices ![0, 0] S16384x1
  slices_S16384x2_S16384x1_0_1 : S16384x2.Slices ![0, 1] S16384x1
  dot_S16384x1024_S1024x2_S16384x2_1_0_0_1_n_n_wf : DotDims.WF S16384x1024 S1024x2 S16384x2 [1] [0] [0] [1] [] []
  dot_S16384x1024_S1024x1024_S16384x1024_1_0_0_1_n_n_wf : DotDims.WF S16384x1024 S1024x1024 S16384x1024 [1] [0] [0] [1] [] []

variable [Facts₀]

def dot_S16384x1024_S1024x2_S16384x2_1_0_0_1_n_n : DotDims S16384x1024 S1024x2 S16384x2 where
  lhsContracting := [1]
  rhsContracting := [0]
  lhsNonContracting := [0]
  rhsNonContracting := [1]
  lhsBatch := []
  rhsBatch := []
  wf := dot_S16384x1024_S1024x2_S16384x2_1_0_0_1_n_n_wf
def dot_S16384x1024_S1024x1024_S16384x1024_1_0_0_1_n_n : DotDims S16384x1024 S1024x1024 S16384x1024 where
  lhsContracting := [1]
  rhsContracting := [0]
  lhsNonContracting := [0]
  rhsNonContracting := [1]
  lhsBatch := []
  rhsBatch := []
  wf := dot_S16384x1024_S1024x1024_S16384x1024_1_0_0_1_n_n_wf

class Facts : Prop extends Facts₀ where

variable [Facts]
-- ==== Proof.GatedMix.lean ====
/-
  A two-expert gated mixture, one row at a time, on the extended reals.

  For one row x of the input (length D) the layer computes: two logits L_j = Σ_k x_k·Wg_{kj} + bg_j and their softmax
  g_j = exp(L_j − M) / Σ_j' exp(L_j' − M), M the row's maximum taken from a starting value B; a dense output
  Y_c = Σ_k x_k·Wml_{kc} + bml_c; a rectified dense output masked by the row's integer flag s,
  U_c = max(Σ_k x_k·Wr_{kc} + br_c, 0)·s, and its row sum Σ_c U_c, which decides whether the row is "supported".
  The mixed output is stated in two arrangements:
    the folded one   (if supported then g0 else 1)·Y_c + (if first then g1 else g0·g1)·U_c,
    the branching one  if supported then (if first then g0·Y_c + g1·U_c else g0·(Y_c + g1·U_c)) else Y_c.
  They agree when g0 is a nonnegative real number (a nonnegative real distributes over a sum of extended reals, an
  infinite factor need not) and U_c vanishes on an unsupported row. The second holds because U_c = y_c·s with
  every y_c ≥ 0 and ONE factor s for the whole row: Σ_c y_c·s = (Σ_c y_c)·s = 0 forces s = 0 or every y_c = 0.
  Both facts are proved here for rows, weights and biases whose entries are real numbers.
-/
import Idealize.ShloMosaic.PureOps.Ideal

noncomputable section

namespace Cert.GatedMix

open Idealize.ShloMosaic

variable {D C : ℕ}

/-! ## The row quantities -/

/-- Entry c of a dense map of the row: Σ_k x_k·W_{kc} + b_c. -/
def dense (x : Fin D → EReal) (W : Fin D → Fin C → EReal) (b : Fin C → EReal) (c : Fin C) : EReal :=
  (∑ k, x k * W k c) + b c

/-- The larger of the two logits, taken from the starting value B (and once more against B). -/
def rowMax (B : EReal) (L : Fin 2 → EReal) : EReal :=
  max B ((Finset.univ : Finset (Fin 2)).fold max B L)

/-- The softmax of the two logits, shifted by their maximum. -/
def gate (B : EReal) (L : Fin 2 → EReal) (j : Fin 2) : EReal :=
  Ideal.div (Ideal.exp (L j - rowMax B L)) (∑ j' : Fin 2, Ideal.exp (L j' - rowMax B L))

/-- Entry c of the rectified dense map of the row, masked by the row's flag s. -/
def rule (x : Fin D → EReal) (W : Fin D → Fin C → EReal) (b : Fin C → EReal) (s : EReal) (c : Fin C) : EReal :=
  max (dense x W b c) 0 * s

/-- The folded arrangement of the mixed output. -/
def mixFolded (sup first : Prop) [Decidable sup] [Decidable first] (g0 g1 Y U : EReal) : EReal :=
  (if sup then g0 else 1) * Y + (if first then g1 else g0 * g1) * U

/-- The branching arrangement of the mixed output. -/
def mixBranch (sup first : Prop) [Decidable sup] [Decidable first] (g0 g1 Y U : EReal) : EReal :=
  if sup then (if first then g0 * Y + g1 * U else g0 * (Y + g1 * U)) else Y

/-! ## Real entries stay real -/

/-- An extended real that is a real number. -/
def IsReal (v : EReal) : Prop := ∃ r : ℝ, v = (r : EReal)

theorem isReal_coe (r : ℝ) : IsReal (r : EReal) := ⟨r, rfl⟩

theorem IsReal.add {u v : EReal} (hu : IsReal u) (hv : IsReal v) : IsReal (u + v) := by
  obtain ⟨a, rfl⟩ := hu
  obtain ⟨b, rfl⟩ := hv
  exact ⟨a + b, (EReal.coe_add a b).symm⟩

theorem IsReal.mul {u v : EReal} (hu : IsReal u) (hv : IsReal v) : IsReal (u * v) := by
  obtain ⟨a, rfl⟩ := hu
  obtain ⟨b, rfl⟩ := hv
  exact ⟨a * b, (EReal.coe_mul a b).symm⟩

/-- A finite sum of real numbers, taken in the extended reals, is the real sum. -/
theorem coe_sum {ι : Type} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

theorem isReal_sum {ι : Type} (s : Finset ι) (f : ι → EReal) (h : ∀ k, IsReal (f k)) : IsReal (∑ k ∈ s, f k) := by
  choose g hg using h
  exact ⟨∑ k ∈ s, g k, by simp only [hg]; exact coe_sum s g⟩

theorem dense_real (x : Fin D → EReal) (W : Fin D → Fin C → EReal) (b : Fin C → EReal)
    (hx : ∀ k, IsReal (x k)) (hW : ∀ k c, IsReal (W k c)) (hb : ∀ c, IsReal (b c)) (c : Fin C) :
    IsReal (dense x W b c) :=
  (isReal_sum _ _ fun k => (hx k).mul (hW k c)).add (hb c)

/-- The maximum of two real logits, from the least extended real, is a real number. -/
theorem rowMax_real (L : Fin 2 → EReal) (h : ∀ j, IsReal (L j)) : IsReal (rowMax ⊥ L) := by
  choose l hl using h
  have h1 : rowMax ⊥ L ≠ ⊤ := by
    refine (max_lt bot_lt_top ((Finset.fold_max_lt _).mpr ⟨bot_lt_top, fun j _ => ?_⟩)).ne
    rw [hl j]
    exact EReal.coe_lt_top _
  have h2 : rowMax ⊥ L ≠ ⊥ := by
    refine (lt_max_of_lt_right ((Finset.lt_fold_max _).mpr (Or.inr ⟨0, Finset.mem_univ _, ?_⟩))).ne'
    rw [hl 0]
    exact EReal.bot_lt_coe _
  exact ⟨(rowMax ⊥ L).toReal, (EReal.coe_toReal h1 h2).symm⟩

theorem exp_coe (r : ℝ) : Ideal.exp (r : EReal) = ((Real.exp r : ℝ) : EReal) := rfl

/-- The softmax weights of two real logits are nonnegative real numbers. -/
theorem gate_nonneg_real (L : Fin 2 → EReal) (h : ∀ j, IsReal (L j)) (j : Fin 2) :
    ∃ a : ℝ, 0 ≤ a ∧ gate ⊥ L j = (a : EReal) := by
  obtain ⟨M, hM⟩ := rowMax_real L h
  choose l hl using h
  have hpos : (0 : ℝ) < ∑ j' : Fin 2, Real.exp (l j' - M) :=
    Finset.sum_pos (fun j' _ => Real.exp_pos _) Finset.univ_nonempty
  refine ⟨Real.exp (l j - M) * (1 / ∑ j' : Fin 2, Real.exp (l j' - M)), by positivity, ?_⟩
  unfold gate
  rw [hM]
  simp only [hl, ← EReal.coe_sub, exp_coe]
  rw [coe_sum, Ideal.div_coe hpos.ne', ← EReal.coe_mul]

theorem coe_max (a b : ℝ) : max (a : EReal) (b : EReal) = ((max a b : ℝ) : EReal) :=
  (EReal.coe_strictMono.monotone.map_max).symm

/-- On a row whose masked rectified outputs sum to zero, every one of them is zero. -/
theorem rule_zero_of_sum_zero (x : Fin D → EReal) (W : Fin D → Fin C → EReal) (b : Fin C → EReal) (s : EReal)
    (hx : ∀ k, IsReal (x k)) (hW : ∀ k c, IsReal (W k c)) (hb : ∀ c, IsReal (b c)) (hs : IsReal s)
    (h0 : ∑ c, rule x W b s c = 0) (c : Fin C) : rule x W b s c = 0 := by
  choose d hd using dense_real x W b hx hW hb
  obtain ⟨σ, rfl⟩ := hs
  have hr : ∀ c, rule x W b (σ : EReal) c = ((max (d c) 0 * σ : ℝ) : EReal) := fun c => by
    unfold rule
    rw [hd c, ← EReal.coe_zero, coe_max, ← EReal.coe_mul]
  simp only [hr] at h0 ⊢
  rw [coe_sum, EReal.coe_eq_zero, ← Finset.sum_mul] at h0
  rw [EReal.coe_eq_zero]
  rcases mul_eq_zero.mp h0 with hz | hz
  · have := (Finset.sum_eq_zero_iff_of_nonneg (fun c _ => le_max_right (d c) 0)).mp hz c (Finset.mem_univ _)
    rw [this, zero_mul]
  · rw [hz, mul_zero]

/-! ## The two arrangements agree -/

theorem mix_eq (sup first : Prop) [Decidable sup] [Decidable first] (g0 g1 Y U : EReal)
    (hg : ∃ a : ℝ, 0 ≤ a ∧ g0 = (a : EReal)) (hU : ¬sup → U = 0) :
    mixFolded sup first g0 g1 Y U = mixBranch sup first g0 g1 Y U := by
  unfold mixFolded mixBranch
  by_cases hs : sup
  · rw [if_pos hs, if_pos hs]
    by_cases hf : first
    · rw [if_pos hf, if_pos hf]
    · rw [if_neg hf, if_neg hf]
      obtain ⟨a, ha, rfl⟩ := hg
      rw [EReal.left_distrib_of_nonneg_of_ne_top (EReal.coe_nonneg.mpr ha) (EReal.coe_ne_top a), mul_assoc]
  · rw [if_neg hs, if_neg hs, hU hs, mul_zero, add_zero, one_mul]

end Cert.GatedMix

end
-- ==== Proof.LibMatmulRows.lean ====
/-
  A rank-2 by rank-2 matrix product read at an index, at the ideal instance.

  For dimension numbers that contract the left operand's axis 1 with the right operand's axis 0 and have no batch
  axis, the entry (r, c) of the product into a zero accumulator is the plain sum over k of a(r, k) * b(k, c) on the
  extended reals; the same for the host's dot_general. The two side facts about the free axes (hl0, hr1) are
  decided once per literal record of dimension numbers.
-/
import Idealize.ShloMosaic.PureOps.Ideal.Laws
import Idealize.ShloMosaic.Lib.ValueIdx

noncomputable section

namespace Idealize.ShloMosaic.MatmulRows

open Idealize.ShloMosaic Idealize.ShloMosaic.ValueIdx

variable {M K N : Nat} {φ₁ φ₂ : FTy}

/-- The operand indices of such a product at output index `i` and contraction position `k` are (i 0, k) and (k, i 1). -/
theorem operand_indices
    (d : DotDims (⟨2, ![M, K]⟩ : Shape) (⟨2, ![K, N]⟩ : Shape) (⟨2, ![M, N]⟩ : Shape))
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (i : (⟨2, ![M, N]⟩ : Shape).Idx) (k : Fin K) :
    d.lhsIdx i ((contrEquiv1 d K hrk hs).symm k) = ix2 (i 0) k
    ∧ d.rhsIdx i ((contrEquiv1 d K hrk hs).symm k) = ix2 k (i 1) := by
  have hk := contrEquiv1_symm_val d K hrk hs k
  constructor
  · funext ax
    apply Fin.ext
    match ax with
    | ⟨0, _⟩ => exact hl0 _ _
    | ⟨1, _⟩ => exact (d.lhsIdx_val_of_single hcl _ _).trans hk
  · funext ax
    apply Fin.ext
    match ax with
    | ⟨0, _⟩ => exact (d.rhsIdx_val_of_single hcr _ _).trans hk
    | ⟨1, _⟩ => exact hr1 _ _

/-- A kernel's matrix product into the zero accumulator, entry by entry. -/
theorem matmul_zero_apply
    (d : DotDims (⟨2, ![M, K]⟩ : Shape) (⟨2, ![K, N]⟩ : Shape) (⟨2, ![M, N]⟩ : Shape)) (prec : Option ContractPrecision)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) :
    FloatOps.matmul d prec a b (constant (F := Ideal) (⟨2, ![M, N]⟩ : Shape) .f32 0x00000000#32) i
      = ∑ k : Fin K, a (ix2 (i 0) k) * b (ix2 k (i 1)) := by
  rw [Ideal.matmul_constant_zero_apply, ← Equiv.sum_comp (contrEquiv1 d K hrk hs).symm]
  refine Finset.sum_congr rfl fun k _ => ?_
  obtain ⟨el, er⟩ := operand_indices d hcl hcr hrk hs hl0 hr1 i k
  rw [el, er]
  rfl

/-- The same with the factors named: whatever the left operand's row and the right operand's column are known to be. -/
theorem matmul_zero_rows
    (d : DotDims (⟨2, ![M, K]⟩ : Shape) (⟨2, ![K, N]⟩ : Shape) (⟨2, ![M, N]⟩ : Shape)) (prec : Option ContractPrecision)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) (L R : Fin K → EReal)
    (hl : ∀ k, a (ix2 (i 0) k) = L k) (hr : ∀ k, b (ix2 k (i 1)) = R k) :
    FloatOps.matmul d prec a b (constant (F := Ideal) (⟨2, ![M, N]⟩ : Shape) .f32 0x00000000#32) i
      = ∑ k : Fin K, L k * R k :=
  (matmul_zero_apply d prec hcl hcr hrk hs hl0 hr1 a b i).trans
    (Finset.sum_congr rfl fun k _ => by rw [hl k, hr k])

/-- The host's dot_general, entry by entry: the same sum. -/
theorem dotGeneral_apply
    (d : DotDims (⟨2, ![M, K]⟩ : Shape) (⟨2, ![K, N]⟩ : Shape) (⟨2, ![M, N]⟩ : Shape)) (prec : Option ContractPrecision)
    (sched : HostSchedule)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) :
    FloatOps.dotGeneral d prec sched a b i = ∑ k : Fin K, a (ix2 (i 0) k) * b (ix2 k (i 1)) := by
  rw [Ideal.dotGeneral_apply, ← Equiv.sum_comp (contrEquiv1 d K hrk hs).symm]
  refine Finset.sum_congr rfl fun k _ => ?_
  obtain ⟨el, er⟩ := operand_indices d hcl hcr hrk hs hl0 hr1 i k
  rw [el, er]
  rfl

end Idealize.ShloMosaic.MatmulRows

end
-- ==== Proof.LibKeepdims.lean ====
/-
  The two "keepdims" column forms of a row reduction's result, read at an index.

  A length-a vector cast to an a by 1 column reads, at (i, u), the vector at i; an a by 1 column broadcast to a by b
  reads, at (p, c), the column at p. Together: a per-row quantity (a row's maximum, a row's sum) spread back over the
  row's entries.
-/
import Idealize.ShloMosaic.Lib.Pipeline.Value
import Idealize.ShloMosaic.Lib.ValueIdx

namespace Idealize.ShloMosaic.Keepdims

open Idealize.ShloMosaic Idealize.ShloMosaic.ValueIdx Idealize.ShloMosaic.Pipeline

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a per-row quantity spread over the row. -/
theorem column_spread {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) :=
  (broadcastTo_a1_ab_apply _ h' p c).trans (shapeCast_a_a1_apply x h p 0)

end Idealize.ShloMosaic.Keepdims
-- ==== Proof.LibReduceAt.lean ====
/-
  Reductions over one axis read at an index of the result, at the ideal instance, with the reduced index named by
  its coordinates.

  For an a by b array: a row's sum, a row's minimum and a column's maximum (a kernel's vector reductions) are the sum,
  the fold of min and the fold of max over the coordinate that was reduced away, of the array's entries at (i, j).
  For an n by a by b array the host's one-operand reduce with a commutative associative operation, along the last axis
  or along the middle axis, is likewise the fold from its initial value over that coordinate of the entries at
  (n, i, j). The folds are over the whole finite type of the reduced coordinate, in no particular order.
-/
import Idealize.ShloMosaic.PureOps.Ideal.Laws
import Idealize.ShloMosaic.PureOps.Reduce
import Idealize.ShloMosaic.Lib.ValueIdx

noncomputable section

namespace Idealize.ShloMosaic.ReduceAt

open Idealize.ShloMosaic Idealize.ShloMosaic.ValueIdx

variable {a b n : ℕ} {φ : FTy}

/-! ### Rank 2: the index put back by a reduction along the columns' axis, or along the rows' axis -/

theorem lift_along_row (h : (⟨2, ![a, b]⟩ : Shape).Reduces [(1 : Fin 2)] ⟨1, ![a]⟩) (i : Fin a) (j : Fin b) :
    h.lift (ix1 i) j = ix2 i j := by
  funext ax
  apply Fin.ext
  match ax with
  | ⟨0, _⟩ => rfl
  | ⟨1, _⟩ => rfl

theorem lift_along_col (h : (⟨2, ![a, b]⟩ : Shape).Reduces [(0 : Fin 2)] ⟨1, ![b]⟩) (j : Fin b) (i : Fin a) :
    h.lift (ix1 j) i = ix2 i j := by
  funext ax
  apply Fin.ext
  match ax with
  | ⟨0, _⟩ => rfl
  | ⟨1, _⟩ => rfl

/-- A row's sum. -/
theorem row_sum_apply (v : FVec Ideal (⟨2, ![a, b]⟩ : Shape) φ) (acc : BitVec φ.bits)
    (h : (⟨2, ![a, b]⟩ : Shape).Reduces [(1 : Fin 2)] ⟨1, ![a]⟩) (hφ : FKind.Formats φ) (hacc : acc = FKind.add.neutral φ hφ)
    (i : Fin a) :
    multiReduction .add [(1 : Fin 2)] ⟨1, ![a]⟩ v acc h hφ hacc (ix1 i) = ∑ j : Fin b, v (ix2 i j) :=
  (Ideal.multiReduction_add_single v acc h hφ hacc (ix1 i)).trans
    (Finset.sum_congr rfl fun j _ => congrArg v (lift_along_row h i j))

/-- A column's sum. -/
theorem col_sum_apply (v : FVec Ideal (⟨2, ![a, b]⟩ : Shape) φ) (acc : BitVec φ.bits)
    (h : (⟨2, ![a, b]⟩ : Shape).Reduces [(0 : Fin 2)] ⟨1, ![b]⟩) (hφ : FKind.Formats φ) (hacc : acc = FKind.add.neutral φ hφ)
    (j : Fin b) :
    multiReduction .add [(0 : Fin 2)] ⟨1, ![b]⟩ v acc h hφ hacc (ix1 j) = ∑ i : Fin a, v (ix2 i j) :=
  (Ideal.multiReduction_add_single v acc h hφ hacc (ix1 j)).trans
    (Finset.sum_congr rfl fun i _ => congrArg v (lift_along_col h j i))

/-- A row's minimum, from the accumulator's value. -/
theorem row_min_apply (v : FVec Ideal (⟨2, ![a, b]⟩ : Shape) φ) (acc : BitVec φ.bits)
    (h : (⟨2, ![a, b]⟩ : Shape).Reduces [(1 : Fin 2)] ⟨1, ![a]⟩) (hφ : FKind.Formats φ) (hacc : acc = FKind.minimumf.neutral φ hφ)
    (i : Fin a) :
    multiReduction .minimumf [(1 : Fin 2)] ⟨1, ![a]⟩ v acc h hφ hacc (ix1 i)
      = (Finset.univ : Finset (Fin b)).fold min (Ideal.ofBits φ acc) (fun j => v (ix2 i j)) := by
  rw [multiReduction_minimumf_eq_fold, h.fold_filter_drop_single]
  have e : (v ∘ h.lift (ix1 i)) = fun j : Fin b => v (ix2 i j) := funext fun j => congrArg v (lift_along_row h i j)
  rw [e]
  rfl

/-- A column's maximum, from the accumulator's value. -/
theorem col_max_apply (v : FVec Ideal (⟨2, ![a, b]⟩ : Shape) φ) (acc : BitVec φ.bits)
    (h : (⟨2, ![a, b]⟩ : Shape).Reduces [(0 : Fin 2)] ⟨1, ![b]⟩) (hφ : FKind.Formats φ) (hacc : acc = FKind.maximumf.neutral φ hφ)
    (j : Fin b) :
    multiReduction .maximumf [(0 : Fin 2)] ⟨1, ![b]⟩ v acc h hφ hacc (ix1 j)
      = (Finset.univ : Finset (Fin a)).fold max (Ideal.ofBits φ acc) (fun i => v (ix2 i j)) := by
  rw [Ideal.multiReduction_maximumf_single]
  have e : (v ∘ h.lift (ix1 j)) = fun i : Fin a => v (ix2 i j) := funext fun i => congrArg v (lift_along_col h j i)
  rw [e]
  rfl

/-! ### Rank 3: the host's reduce along the last axis, or along the middle axis -/

theorem lift_along_last (h : (⟨3, ![n, a, b]⟩ : Shape).Reduces [(2 : Fin 3)] ⟨2, ![n, a]⟩) (p : Fin n) (i : Fin a) (j : Fin b) :
    h.lift (ix2 p i) j = ix3 p i j := by
  funext ax
  apply Fin.ext
  match ax with
  | ⟨0, _⟩ => rfl
  | ⟨1, _⟩ => rfl
  | ⟨2, _⟩ => rfl

theorem lift_along_middle (h : (⟨3, ![n, a, b]⟩ : Shape).Reduces [(1 : Fin 3)] ⟨2, ![n, b]⟩) (p : Fin n) (j : Fin b) (i : Fin a) :
    h.lift (ix2 p j) i = ix3 p i j := by
  funext ax
  apply Fin.ext
  match ax with
  | ⟨0, _⟩ => rfl
  | ⟨1, _⟩ => rfl
  | ⟨2, _⟩ => rfl

/-- The host's reduce along the last axis. -/
theorem host_reduce_last_apply {u : Shape} (f : EReal → EReal → EReal) [Std.Commutative f] [Std.Associative f]
    (x : (⟨3, ![n, a, b]⟩ : Shape).Idx → EReal) (init : u.Idx → EReal)
    (h' : (⟨3, ![n, a, b]⟩ : Shape).ReducesTo [(2 : Fin 3)] ⟨2, ![n, a]⟩) (hu : 0 < u.numel)
    (h : (⟨3, ![n, a, b]⟩ : Shape).Reduces [(2 : Fin 3)] ⟨2, ![n, a]⟩) (p : Fin n) (i : Fin a) :
    Host.reduce f x init h' hu (ix2 p i)
      = (Finset.univ : Finset (Fin b)).fold f (init (Shape.Idx.first hu)) (fun j => x (ix3 p i j)) := by
  rw [Host.reduce_eq_fold, Shape.ReducesTo.drop_eq_drop h' h, h.fold_filter_drop_single]
  have e : (x ∘ h.lift (ix2 p i)) = fun j : Fin b => x (ix3 p i j) := funext fun j => congrArg x (lift_along_last h p i j)
  rw [e]
  rfl

/-- The host's reduce along the middle axis. -/
theorem host_reduce_middle_apply {u : Shape} (f : EReal → EReal → EReal) [Std.Commutative f] [Std.Associative f]
    (x : (⟨3, ![n, a, b]⟩ : Shape).Idx → EReal) (init : u.Idx → EReal)
    (h' : (⟨3, ![n, a, b]⟩ : Shape).ReducesTo [(1 : Fin 3)] ⟨2, ![n, b]⟩) (hu : 0 < u.numel)
    (h : (⟨3, ![n, a, b]⟩ : Shape).Reduces [(1 : Fin 3)] ⟨2, ![n, b]⟩) (p : Fin n) (j : Fin b) :
    Host.reduce f x init h' hu (ix2 p j)
      = (Finset.univ : Finset (Fin a)).fold f (init (Shape.Idx.first hu)) (fun i => x (ix3 p i j)) := by
  rw [Host.reduce_eq_fold, Shape.ReducesTo.drop_eq_drop h' h, h.fold_filter_drop_single]
  have e : (x ∘ h.lift (ix2 p j)) = fun i : Fin a => x (ix3 p i j) := funext fun i => congrArg x (lift_along_middle h p j i)
  rw [e]
  rfl

end Idealize.ShloMosaic.ReduceAt

end
-- ==== Proof.KernelRow.lean ====
/-
  The kernel body's three stored values, read entry by entry on one block of 1024 rows.

  The body sees a block x of 1024 rows of the input (1024 x 1024), the rows' integer flags as a column (1024 x 1), and
  the whole gate weights (1024 x 2), dense weights (1024 x 1024 each) and biases. Row p of the block gives row p of
  each stored block, through the row quantities of the gated mixture at the row x(p, ·):
    the gate block      (p, j)  the softmax weight j of the row's two logits;
    the support block   (p, 0)  the row's sum of masked rectified outputs;
    the mixed block     (p, c)  the folded arrangement, "supported" tested on the row's sum and "first" tested on the
                                32-bit integer t·1024 + p built from the grid coordinate t.
  Every step is the operation's own reading at an index: a matrix product into a zero accumulator is a plain sum, a
  lane reduction is a sum or a fold of max over the lane coordinate, a column spread back over its row reads the
  column, a change of float format is the identity.
-/
import proofs.«162432_j38208029065733_2_alg».proof.Proof.Gen.KernelIdeal.Skeleton
import proofs.«162432_j38208029065733_2_alg».proof.Proof.GatedMix
import proofs.«162432_j38208029065733_2_alg».proof.Proof.LibMatmulRows
import proofs.«162432_j38208029065733_2_alg».proof.Proof.LibKeepdims
import proofs.«162432_j38208029065733_2_alg».proof.Proof.LibReduceAt
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.RowValue

open Cert.KernelIdeal Cert.KernelIdeal.Gen Cert.GatedMix
open Idealize.ShloMosaic Idealize.ShloMosaic.ValueIdx

/-! ## The two products' free axes -/

theorem gateDot_l0 (i : S1024x2.Idx) (q : dot_S1024x1024_S1024x2_S1024x2_1_0_0_1_n_n.contr.Idx) :
    (dot_S1024x1024_S1024x2_S1024x2_1_0_0_1_n_n.lhsIdx i q 0).val = (i 0).val := by
  unfold DotDims.lhsIdx
  rw [dif_neg (show ¬(0 : Fin S1024x1024.rank) ∈ dot_S1024x1024_S1024x2_S1024x2_1_0_0_1_n_n.lhsBatch by decide),
    dif_pos (show (0 : Fin S1024x1024.rank) ∈ dot_S1024x1024_S1024x2_S1024x2_1_0_0_1_n_n.lhsNonContracting by decide)]
  rfl

theorem gateDot_r1 (i : S1024x2.Idx) (q : dot_S1024x1024_S1024x2_S1024x2_1_0_0_1_n_n.contr.Idx) :
    (dot_S1024x1024_S1024x2_S1024x2_1_0_0_1_n_n.rhsIdx i q 1).val = (i 1).val := by
  unfold DotDims.rhsIdx
  rw [dif_neg (show ¬(1 : Fin S1024x2.rank) ∈ dot_S1024x1024_S1024x2_S1024x2_1_0_0_1_n_n.rhsBatch by decide),
    dif_pos (show (1 : Fin S1024x2.rank) ∈ dot_S1024x1024_S1024x2_S1024x2_1_0_0_1_n_n.rhsNonContracting by decide)]
  rfl

theorem wideDot_l0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide),
    dif_pos (show (0 : Fin S1024x1024.rank) ∈ dot_S1024x1024_S1024x1024_S1024x1024_1_0_0_1_n_n.lhsNonContracting by decide)]
  rfl

theorem wideDot_r1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide),
    dif_pos (show (1 : Fin S1024x1024.rank) ∈ dot_S1024x1024_S1024x1024_S1024x1024_1_0_0_1_n_n.rhsNonContracting by decide)]
  rfl

/-! ## A dense map of the block -/

/-- The two logits of row p: the block times the gate weights, plus the bias spread down the rows. -/
theorem logits_apply (x0 : FVec Ideal S1024x1024 .f32) (w : FVec Ideal S1024x2 .bf16) (b : FVec Ideal S2 .f32)
    (p : Fin 1024) (j : Fin 2) :
    addf (matmul dot_S1024x1024_S1024x2_S1024x2_1_0_0_1_n_n none (k0_pay2 x0)
        (shapeCast S1024x2 w Facts₀.shapeCasts_S1024x2_S1024x2) (constant S1024x2 .f32 0x00000000#32))
      (broadcastTo S1024x2 (shapeCast S1x2 b Facts₀.shapeCasts_S2_S1x2) Facts₀.broadcasts_S1x2_S1024x2) (ix2 p j)
      = dense (fun k => x0 (ix2 p k)) (fun k j => w (ix2 k j)) (fun j => b (ix1 j)) j := by
  unfold dense
  refine congrArg₂ (· + ·) ?_ ?_
  · rw [shapeCast_self]
    exact MatmulRows.matmul_zero_apply dot_S1024x1024_S1024x2_S1024x2_1_0_0_1_n_n none rfl rfl rfl rfl
      gateDot_l0 gateDot_r1 (k0_pay2 x0) w (ix2 p j)
  · exact (broadcastTo_1b_ab_apply _ Facts₀.broadcasts_S1x2_S1024x2 p j).trans (shapeCast_a_1a_apply b Facts₀.shapeCasts_S2_S1x2 0 j)

/-- Entry (p, c) of a dense map of the block with a 1024 x 1024 weight. -/
theorem wide_apply (x0 : FVec Ideal S1024x1024 .f32) (w : FVec Ideal S1024x1024 .bf16) (b : FVec Ideal S1024 .f32)
    (p c : Fin 1024) :
    addf (matmul dot_S1024x1024_S1024x1024_S1024x1024_1_0_0_1_n_n none (k0_pay2 x0)
        (shapeCast S1024x1024 w Facts₀.shapeCasts_S1024x1024_S1024x1024) (constant S1024x1024 .f32 0x00000000#32))
      (broadcastTo S1024x1024 (shapeCast S1x1024 b Facts₀.shapeCasts_S1024_S1x1024) Facts₀.broadcasts_S1x1024_S1024x1024) (ix2 p c)
      = dense (fun k => x0 (ix2 p k)) (fun k c => w (ix2 k c)) (fun c => b (ix1 c)) c := by
  unfold dense
  refine congrArg₂ (· + ·) ?_ ?_
  · rw [shapeCast_self]
    exact MatmulRows.matmul_zero_apply dot_S1024x1024_S1024x1024_S1024x1024_1_0_0_1_n_n none rfl rfl rfl rfl
      wideDot_l0 wideDot_r1 (k0_pay2 x0) w (ix2 p c)
  · exact (broadcastTo_1b_ab_apply _ Facts₀.broadcasts_S1x1024_S1024x1024 p c).trans
      (shapeCast_a_1a_apply b Facts₀.shapeCasts_S1024_S1x1024 0 c)

/-! ## A per-row quantity spread back over its row -/

/-- The row maximum as the body takes it — a lane reduction from the word of -∞, once more against -∞, kept as a
    column and spread over the row. -/
def maxSpread (v : FVec Ideal S1024x2 .f32) : FVec Ideal S1024x2 .f32 :=
  broadcastTo S1024x2 (shapeCast S1024x1 (maximumf (broadcast S1024 (Scalar.ofBits .f32 0xFF800000#32))
      (multiReduction .maximumf [1] S1024 v 0xFF800000#32 Facts₀.reduces_S1024x2_S1024 (.inl rfl) rfl))
    Facts₀.shapeCasts_S1024_S1024x1) Facts₀.broadcasts_S1024x1_S1024x2

theorem maxSpread_apply (v : FVec Ideal S1024x2 .f32) (p : Fin 1024) (j : Fin 2) :
    maxSpread v (ix2 p j) = rowMax (Ideal.ofBits .f32 0xFF800000#32) (fun j' => v (ix2 p j')) := by
  unfold maxSpread
  refine (Keepdims.column_spread _ Facts₀.shapeCasts_S1024_S1024x1 Facts₀.broadcasts_S1024x1_S1024x2 p j).trans ?_
  unfold rowMax
  refine congrArg (max (Ideal.ofBits .f32 0xFF800000#32)) ?_
  refine (Ideal.multiReduction_maximumf_single v 0xFF800000#32 Facts₀.reduces_S1024x2_S1024 (.inl rfl) rfl (ix1 p)).trans ?_
  have e : (v ∘ Facts₀.reduces_S1024x2_S1024.lift (ix1 p)) = fun j' : Fin 2 => v (ix2 p j') :=
    funext fun j' => congrArg v (ReduceAt.lift_along_row Facts₀.reduces_S1024x2_S1024 p j')
  rw [e]
  rfl

/-- The row sum as the body takes it, kept as a column and spread over the row. -/
def sumSpread (v : FVec Ideal S1024x2 .f32) : FVec Ideal S1024x2 .f32 :=
  broadcastTo S1024x2 (shapeCast S1024x1 (multiReduction .add [1] S1024 v 0x00000000#32 Facts₀.reduces_S1024x2_S1024 (.inl rfl) rfl)
    Facts₀.shapeCasts_S1024_S1024x1) Facts₀.broadcasts_S1024x1_S1024x2

theorem sumSpread_apply (v : FVec Ideal S1024x2 .f32) (p : Fin 1024) (j : Fin 2) :
    sumSpread v (ix2 p j) = ∑ j' : Fin 2, v (ix2 p j') :=
  (Keepdims.column_spread _ Facts₀.shapeCasts_S1024_S1024x1 Facts₀.broadcasts_S1024x1_S1024x2 p j).trans
    (ReduceAt.row_sum_apply v 0x00000000#32 Facts₀.reduces_S1024x2_S1024 (.inl rfl) rfl p)

/-! ## The gate block -/

/-- The logits of the whole block. -/
def logitsK (x0 : FVec Ideal S1024x1024 .f32) (w : FVec Ideal S1024x2 .bf16) (b : FVec Ideal S2 .f32) : FVec Ideal S1024x2 .f32 :=
  addf (matmul dot_S1024x1024_S1024x2_S1024x2_1_0_0_1_n_n none (k0_pay2 x0)
      (shapeCast S1024x2 w Facts₀.shapeCasts_S1024x2_S1024x2) (constant S1024x2 .f32 0x00000000#32))
    (broadcastTo S1024x2 (shapeCast S1x2 b Facts₀.shapeCasts_S2_S1x2) Facts₀.broadcasts_S1x2_S1024x2)

/-- The softmax of a block of logits, row by row. -/
def softmaxK (v : FVec Ideal S1024x2 .f32) : FVec Ideal S1024x2 .f32 :=
  divf (exp (subf v (maxSpread v))) (sumSpread (exp (subf v (maxSpread v))))

theorem pay3_eq (x0 : FVec Ideal S1024x1024 .f32) (w : FVec Ideal S1024x2 .bf16) (b : FVec Ideal S2 .f32) :
    k0_pay3 (F := Ideal) x0 w b = softmaxK (logitsK x0 w b) := rfl

theorem softmaxK_apply (v : FVec Ideal S1024x2 .f32) (p : Fin 1024) (j : Fin 2) :
    softmaxK v (ix2 p j) = gate (Ideal.ofBits .f32 0xFF800000#32) (fun j' => v (ix2 p j')) j := by
  unfold softmaxK gate
  show Ideal.div (Ideal.exp (v (ix2 p j) - maxSpread v (ix2 p j))) (sumSpread (exp (subf v (maxSpread v))) (ix2 p j)) = _
  rw [maxSpread_apply, sumSpread_apply]
  refine congrArg (Ideal.div _) (Finset.sum_congr rfl fun j' _ => ?_)
  show Ideal.exp (v (ix2 p j') - maxSpread v (ix2 p j')) = _
  rw [maxSpread_apply]

/-- Entry (p, j) of the stored gate block: the softmax weight j of row p's logits. -/
theorem gate_apply (x0 : FVec Ideal S1024x1024 .f32) (w : FVec Ideal S1024x2 .bf16) (b : FVec Ideal S2 .f32)
    (p : Fin 1024) (j : Fin 2) :
    k0_pay3 (F := Ideal) x0 w b (ix2 p j)
      = gate (Ideal.ofBits .f32 0xFF800000#32) (dense (fun k => x0 (ix2 p k)) (fun k j => w (ix2 k j)) (fun j => b (ix1 j))) j := by
  rw [pay3_eq, softmaxK_apply]
  exact congrArg (gate (Ideal.ofBits .f32 0xFF800000#32) · j) (funext fun j' => logits_apply x0 w b p j')

/-- The two weights as the columns the body slices off the gate block. -/
theorem gate0_apply (x0 : FVec Ideal S1024x1024 .f32) (w : FVec Ideal S1024x2 .bf16) (b : FVec Ideal S2 .f32)
    (p : Fin 1024) (u : Fin 1) :
    k0_pay4 (F := Ideal) x0 w b (ix2 p u)
      = gate (Ideal.ofBits .f32 0xFF800000#32) (dense (fun k => x0 (ix2 p k)) (fun k j => w (ix2 k j)) (fun j => b (ix1 j))) 0 := by
  unfold k0_pay4
  refine (slice2_axis1_apply 0 _ Facts₀.slices_S1024x2_o0_0_S1024x1 p u (0 : Fin 2)
    (by have := u.isLt; show (0 : ℕ) = 0 + u.val; omega)).trans ?_
  exact gate_apply x0 w b p 0

theorem gate1_apply (x0 : FVec Ideal S1024x1024 .f32) (w : FVec Ideal S1024x2 .bf16) (b : FVec Ideal S2 .f32)
    (p : Fin 1024) (u : Fin 1) :
    k0_pay5 (F := Ideal) x0 w b (ix2 p u)
      = gate (Ideal.ofBits .f32 0xFF800000#32) (dense (fun k => x0 (ix2 p k)) (fun k j => w (ix2 k j)) (fun j => b (ix1 j))) 1 := by
  unfold k0_pay5
  refine (slice2_axis1_apply 1 _ Facts₀.slices_S1024x2_o0_1_S1024x1 p u (1 : Fin 2)
    (by have := u.isLt; show (1 : ℕ) = 1 + u.val; omega)).trans ?_
  exact gate_apply x0 w b p 1

/-! ## The masked rectified block and its row sums -/

/-- The rows' integer flags, converted and spread over their rows. -/
def flagSpread (s : IVec S1024x1 32) : FVec Ideal S1024x1024 .f32 :=
  broadcastTo S1024x1024 (sitofp .f32 (shapeCast S1024x1 s Facts₀.shapeCasts_S1024x1_S1024x1)) Facts₀.broadcasts_S1024x1_S1024x1024

theorem flagSpread_apply (s : IVec S1024x1 32) (p c : Fin 1024) :
    flagSpread s (ix2 p c) = (((s (ix2 p (0 : Fin 1))).toInt : ℝ) : EReal) := by
  unfold flagSpread
  refine (Keepdims.broadcastTo_a1_ab_apply _ Facts₀.broadcasts_S1024x1_S1024x1024 p c).trans ?_
  rw [shapeCast_self]
  rfl

/-- A dense map of the block with a 1024 x 1024 weight, whole. -/
def wideK (x0 : FVec Ideal S1024x1024 .f32) (w : FVec Ideal S1024x1024 .bf16) (b : FVec Ideal S1024 .f32) : FVec Ideal S1024x1024 .f32 :=
  addf (matmul dot_S1024x1024_S1024x1024_S1024x1024_1_0_0_1_n_n none (k0_pay2 x0)
      (shapeCast S1024x1024 w Facts₀.shapeCasts_S1024x1024_S1024x1024) (constant S1024x1024 .f32 0x00000000#32))
    (broadcastTo S1024x1024 (shapeCast S1x1024 b Facts₀.shapeCasts_S1024_S1x1024) Facts₀.broadcasts_S1x1024_S1024x1024)

theorem pay6_eq (x0 : FVec Ideal S1024x1024 .f32) (w : FVec Ideal S1024x1024 .bf16) (b : FVec Ideal S1024 .f32) (s : IVec S1024x1 32) :
    k0_pay6 (F := Ideal) x0 w b s
      = mulf (maximumf (wideK x0 w b) (broadcast S1024x1024 (Scalar.ofBits .f32 0x00000000#32))) (flagSpread s) := rfl

/-- Entry (p, c) of the masked rectified block. -/
theorem rule_apply (x0 : FVec Ideal S1024x1024 .f32) (w : FVec Ideal S1024x1024 .bf16) (b : FVec Ideal S1024 .f32) (s : IVec S1024x1 32)
    (p c : Fin 1024) :
    k0_pay6 (F := Ideal) x0 w b s (ix2 p c)
      = rule (fun k => x0 (ix2 p k)) (fun k c => w (ix2 k c)) (fun c => b (ix1 c)) (((s (ix2 p (0 : Fin 1))).toInt : ℝ) : EReal) c := by
  rw [pay6_eq]
  unfold rule
  show max (wideK x0 w b (ix2 p c)) (Ideal.ofBits .f32 0x00000000#32) * flagSpread s (ix2 p c) = _
  rw [flagSpread_apply, Ideal.ofBits_zero_f32]
  exact congrArg (max · 0 * _) (wide_apply x0 w b p c)

/-- Entry (p, 0) of the stored support block: the row's sum. -/
theorem support_apply (x0 : FVec Ideal S1024x1024 .f32) (w : FVec Ideal S1024x1024 .bf16) (b : FVec Ideal S1024 .f32) (s : IVec S1024x1 32)
    (p : Fin 1024) (u : Fin 1) :
    k0_pay7 (F := Ideal) x0 w b s (ix2 p u)
      = ∑ c : Fin 1024, rule (fun k => x0 (ix2 p k)) (fun k c => w (ix2 k c)) (fun c => b (ix1 c))
          (((s (ix2 p (0 : Fin 1))).toInt : ℝ) : EReal) c := by
  unfold k0_pay7
  refine (Keepdims.shapeCast_a_a1_apply _ Facts₀.shapeCasts_S1024_S1024x1 p u).trans ?_
  refine (ReduceAt.row_sum_apply (k0_pay6 (F := Ideal) x0 w b s) 0x00000000#32 Facts₀.reduces_S1024x1024_S1024 (.inl rfl) rfl p).trans ?_
  exact Finset.sum_congr rfl fun c _ => rule_apply x0 w b s p c

/-! ## The two tests and the mixed block -/

theorem ofBits_one : Ideal.ofBits .f32 0x3F800000#32 = 1 := by
  simp [Ideal.ofBits, Ideal.ieee]
  first
    | (norm_cast; norm_num)
    | (rw [← EReal.coe_mul, ← EReal.coe_one]; exact congrArg _ (by norm_num))

/-- A select on "not equal" of two extended reals. -/
theorem select_ne (x y a b : EReal) : Scalar.select (Ideal.cmp .one x y) a b = if x ≠ y then a else b := by
  by_cases h : x = y
  · simp [Scalar.select, Ideal.cmp, h]
  · simp [Scalar.select, Ideal.cmp, h]

/-- A select on "equals zero" of a 32-bit integer. -/
theorem select_eq0 (x : BitVec 32) (a b : EReal) : Scalar.select (IntOp.cmpi .eq x 0#32) a b = if x = 0#32 then a else b := by
  by_cases h : x = 0#32
  · simp [Scalar.select, IntOp.cmpi, h]
  · have hb : (x == 0#32) = false := beq_eq_false_iff_ne.mpr h
    rw [if_neg h]
    show (if BitVec.ofBool (x == 0#32) = 1 then a else b) = b
    rw [hb]
    exact if_neg (by decide)

/-- The stored mixed value from its parts: the folded arrangement, with "supported" read off the support column and
    "first" off the integer t·1024 + p. -/
theorem mix_apply (arg0 : BitVec 32) (v1 : FVec Ideal S1024x1024 .bf16) (v20 v21 : FVec Ideal S1024x1 .f32)
    (v35 : FVec Ideal S1024x1024 .f32) (v37 : FVec Ideal S1024x1 .f32) (v39 : FVec Ideal S1024x1024 .bf16)
    (v41 : FVec Ideal S1024 .f32) (p c : Fin 1024) :
    k0_pay1 (F := Ideal) arg0 v1 v20 v21 v35 v37 v39 v41 (ix2 p c)
      = mixFolded (v37 (ix2 p (0 : Fin 1)) ≠ 0) (arg0 * 1024#32 + BitVec.ofNat 32 p.val = 0#32)
          (v20 (ix2 p (0 : Fin 1))) (v21 (ix2 p (0 : Fin 1)))
          ((∑ k : Fin 1024, v1 (ix2 p k) * v39 (ix2 k c)) + v41 (ix1 c)) (v35 (ix2 p c)) := by
  unfold k0_pay1 mixFolded
  refine congrArg₂ (· + ·) (congrArg₂ (· * ·) ?_ (congrArg₂ (· + ·) ?_ ?_)) (congrArg₂ (· * ·) ?_ rfl)
  · refine (Keepdims.broadcastTo_a1_ab_apply _ Facts₀.broadcasts_S1024x1_S1024x1024 p c).trans ?_
    show Scalar.select (Ideal.cmp .one (v37 (ix2 p (0 : Fin 1))) (Ideal.ofBits .f32 0x00000000#32)) (v20 (ix2 p (0 : Fin 1)))
      (Ideal.ofBits .f32 0x3F800000#32) = _
    rw [Ideal.ofBits_zero_f32, ofBits_one]
    exact select_ne _ _ _ _
  · exact MatmulRows.matmul_zero_apply dot_S1024x1024_S1024x1024_S1024x1024_1_0_0_1_n_n none rfl rfl rfl rfl
      wideDot_l0 wideDot_r1 v1 v39 (ix2 p c)
  · exact (broadcastTo_1b_ab_apply _ Facts₀.broadcasts_S1x1024_S1024x1024 p c).trans
      (shapeCast_a_1a_apply v41 Facts₀.shapeCasts_S1024_S1x1024 0 c)
  · refine (Keepdims.broadcastTo_a1_ab_apply _ Facts₀.broadcasts_S1024x1_S1024x1024 p c).trans ?_
    show Scalar.select (IntOp.cmpi .eq (arg0 * 1024#32 + iota .tc S1024x1 32 [0] Facts₀.iota_S1024x1_d0_w32 (ix2 p (0 : Fin 1))) 0#32)
      (v21 (ix2 p (0 : Fin 1))) (v20 (ix2 p (0 : Fin 1)) * v21 (ix2 p (0 : Fin 1))) = _
    rw [iota_single_apply]
    exact select_eq0 _ _ _

/-- Entry (p, c) of the stored mixed block, from the input blocks and the point's grid coordinate word. -/
theorem y_apply (arg0 : BitVec 32) (x0 : FVec Ideal S1024x1024 .f32) (x1 : IVec S1024x1 32) (x2 : FVec Ideal S1024x2 .bf16)
    (x3 : FVec Ideal S2 .f32) (x4 : FVec Ideal S1024x1024 .bf16) (x5 : FVec Ideal S1024 .f32) (x6 : FVec Ideal S1024x1024 .bf16)
    (x7 : FVec Ideal S1024 .f32) (p c : Fin 1024) :
    k0_pay1 (F := Ideal) arg0 (k0_pay2 x0) (k0_pay4 x0 x2 x3) (k0_pay5 x0 x2 x3) (k0_pay6 x0 x6 x7 x1) (k0_pay7 x0 x6 x7 x1)
        (k0_pay8 x4) x5 (ix2 p c)
      = mixFolded
          ((∑ c' : Fin 1024, rule (fun k => x0 (ix2 p k)) (fun k c => x6 (ix2 k c)) (fun c => x7 (ix1 c))
              (((x1 (ix2 p (0 : Fin 1))).toInt : ℝ) : EReal) c') ≠ 0)
          (arg0 * 1024#32 + BitVec.ofNat 32 p.val = 0#32)
          (gate (Ideal.ofBits .f32 0xFF800000#32) (dense (fun k => x0 (ix2 p k)) (fun k j => x2 (ix2 k j)) (fun j => x3 (ix1 j))) 0)
          (gate (Ideal.ofBits .f32 0xFF800000#32) (dense (fun k => x0 (ix2 p k)) (fun k j => x2 (ix2 k j)) (fun j => x3 (ix1 j))) 1)
          (dense (fun k => x0 (ix2 p k)) (fun k c => x4 (ix2 k c)) (fun c => x5 (ix1 c)) c)
          (rule (fun k => x0 (ix2 p k)) (fun k c => x6 (ix2 k c)) (fun c => x7 (ix1 c))
              (((x1 (ix2 p (0 : Fin 1))).toInt : ℝ) : EReal) c) := by
  rw [mix_apply, support_apply, rule_apply, gate0_apply, gate1_apply]
  unfold dense k0_pay8
  rw [shapeCast_self]
  rfl

/-- The "first row" test: the 32-bit integer t·1024 + p is zero exactly when the row number t·1024 + p is. -/
theorem first_iff (t : Fin 16) (p : Fin 1024) :
    (BitVec.ofNat 32 t.val * 1024#32 + BitVec.ofNat 32 p.val = 0#32) ↔ t.val * 1024 + p.val = 0 := by
  have ht := t.isLt
  have hp := p.isLt
  constructor
  · intro h
    have h' := congrArg BitVec.toNat h
    simp only [BitVec.toNat_add, BitVec.toNat_mul, BitVec.toNat_ofNat] at h'
    omega
  · intro h
    have h1 : t.val = 0 := by omega
    have h2 : p.val = 0 := by omega
    rw [h1, h2]
    decide

end Cert.KernelIdeal.RowValue

end
-- ==== Proof.Layer.lean ====
/-
  The gated mixture over whole arrays: each result array as one function of the argument arrays.

  The input x is 16384 rows of length 1024; the gate weights Wg are 1024 x 2 with bias bg; the two dense maps Wml, Wr
  are 1024 x 1024 with biases bml, br; the support flags S are one 32-bit integer per row. Row r of every result
  depends on row r of x only (GatedMix's row quantities at the row x(r, ·)):
    gate(r, j)     the softmax weight j of the row's two logits,
    support(r)     the sum over c of the masked rectified outputs of the row,
    y(r, c)        the mixed output, in the folded and in the branching arrangement; the "first" row is r = 0.
  The two arrangements of y are one array when x, Wg, bg, Wr and br hold real numbers.
-/
import proofs.«162432_j38208029065733_2_alg».proof.Proof.GatedMix
import Idealize.ShloMosaic.Lib.ValueIdx

noncomputable section

namespace Cert.GatedMix

open Idealize.ShloMosaic Idealize.ShloMosaic.ValueIdx

abbrev SX : Shape := ⟨2, ![16384, 1024]⟩
abbrev SWg : Shape := ⟨2, ![1024, 2]⟩
abbrev Sbg : Shape := ⟨1, ![2]⟩
abbrev SW : Shape := ⟨2, ![1024, 1024]⟩
abbrev Sb : Shape := ⟨1, ![1024]⟩
abbrev SRow : Shape := ⟨1, ![16384]⟩
abbrev SGate : Shape := ⟨2, ![16384, 2]⟩
abbrev SCol : Shape := ⟨2, ![16384, 1]⟩

/-- The value the row maximum starts from: the word of -∞. -/
def negInf : EReal := Ideal.ofBits .f32 0xFF800000#32

theorem negInf_eq : negInf = ⊥ := by
  simp [negInf, Ideal.ofBits, Ideal.ieee]

section
variable (X : SX.Idx → EReal) (Wg : SWg.Idx → EReal) (bg : Sbg.Idx → EReal) (Wml : SW.Idx → EReal) (bml : Sb.Idx → EReal)
  (Wr : SW.Idx → EReal) (br : Sb.Idx → EReal) (S : SRow.Idx → BitVec 32)

/-- Row r of x. -/
def xrow (r : Fin 16384) : Fin 1024 → EReal := fun k => X (ix2 r k)

/-- The two logits of row r. -/
def logits (r : Fin 16384) : Fin 2 → EReal :=
  dense (xrow X r) (fun k j => Wg (ix2 k j)) (fun j => bg (ix1 j))

def gateAt (r : Fin 16384) (j : Fin 2) : EReal := gate negInf (logits X Wg bg r) j

def ymlAt (r : Fin 16384) (c : Fin 1024) : EReal :=
  dense (xrow X r) (fun k c => Wml (ix2 k c)) (fun c => bml (ix1 c)) c

/-- Row r's support flag as a real number: the integer, read signed. -/
def flag (r : Fin 16384) : EReal := (((S (ix1 r)).toInt : ℝ) : EReal)

def ruleAt (r : Fin 16384) (c : Fin 1024) : EReal :=
  rule (xrow X r) (fun k c => Wr (ix2 k c)) (fun c => br (ix1 c)) (flag S r) c

def supportAt (r : Fin 16384) : EReal := ∑ c : Fin 1024, ruleAt X Wr br S r c

def yFoldedAt (r : Fin 16384) (c : Fin 1024) : EReal :=
  mixFolded (supportAt X Wr br S r ≠ 0) (r.val = 0) (gateAt X Wg bg r 0) (gateAt X Wg bg r 1)
    (ymlAt X Wml bml r c) (ruleAt X Wr br S r c)

def yBranchAt (r : Fin 16384) (c : Fin 1024) : EReal :=
  mixBranch (supportAt X Wr br S r ≠ 0) (r.val = 0) (gateAt X Wg bg r 0) (gateAt X Wg bg r 1)
    (ymlAt X Wml bml r c) (ruleAt X Wr br S r c)

/-! ## The result arrays -/

def gateArr : SGate.Idx → EReal := fun i => gateAt X Wg bg (i 0) (i 1)

def supportArr : SRow.Idx → EReal := fun i => supportAt X Wr br S (i 0)

/-- The supports kept as a column (16384 x 1). -/
def supportCol : SCol.Idx → EReal := fun i => supportAt X Wr br S (i 0)

def yFolded : SX.Idx → EReal := fun i => yFoldedAt X Wg bg Wml bml Wr br S (i 0) (i 1)

def yBranch : SX.Idx → EReal := fun i => yBranchAt X Wg bg Wml bml Wr br S (i 0) (i 1)

/-- With real x, Wg, bg, Wr, br the two arrangements of the mixed output are one array. -/
theorem yFolded_eq_yBranch (hX : ∀ i, IsReal (X i)) (hWg : ∀ i, IsReal (Wg i)) (hbg : ∀ i, IsReal (bg i))
    (hWr : ∀ i, IsReal (Wr i)) (hbr : ∀ i, IsReal (br i)) :
    yFolded X Wg bg Wml bml Wr br S = yBranch X Wg bg Wml bml Wr br S := by
  funext i
  unfold yFolded yBranch yFoldedAt yBranchAt
  refine mix_eq _ _ _ _ _ _ ?_ ?_
  · unfold gateAt
    rw [negInf_eq]
    exact gate_nonneg_real _ (fun j => dense_real _ _ _ (fun k => hX _) (fun k j => hWg _) (fun j => hbg _) j) 0
  · intro h
    exact rule_zero_of_sum_zero _ _ _ _ (fun k => hX _) (fun k c => hWr _) (fun c => hbr _) (isReal_coe _)
      (not_not.mp h) (i 1)

end

end Cert.GatedMix

end
-- ==== Proof.LibHostBroadcast.lean ====
/-
  The host's broadcast_in_dim in the few forms a dense layer uses, read at an index.

  A scalar spread over any shape; a length-b vector made a 1 by b row and the row repeated down a rows (a bias); a
  length-a vector made an a by 1 column and the column repeated across b columns (a per-row quantity kept as a column).
-/
import Idealize.ShloMosaic.Lib.Pipeline.Value
import Idealize.ShloMosaic.Lib.ValueIdx

namespace Idealize.ShloMosaic.HostBroadcast

open Idealize.ShloMosaic Idealize.ShloMosaic.ValueIdx Idealize.ShloMosaic.Pipeline

variable {α : Type}

/-- A scalar broadcast to any shape reads the scalar everywhere. -/
theorem scalar_apply {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 (fun a => a.elim0)

/-- A length-b vector as a 1 by b row. -/
theorem vec_row_apply {b : ℕ} (h : (⟨1, ![b]⟩ : Shape).BroadcastsInDim ⟨2, ![1, b]⟩ ![1])
    (x : (⟨1, ![b]⟩ : Shape).Idx → α) (j : (⟨2, ![1, b]⟩ : Shape).Idx) :
    broadcastInDim ⟨2, ![1, b]⟩ ![1] h x j = x (ix1 (j 1)) :=
  broadcastInDim_apply _ h x j (ix1 (j 1)) (fun a => match a with
    | ⟨0, _⟩ => by
      show (j 1).val = if b = 1 then 0 else (j 1).val
      split
      · have := (j 1).isLt; simp at this; omega
      · rfl)

/-- A 1 by b row repeated down a rows. -/
theorem row_rows_apply {a b : ℕ} (h : (⟨2, ![1, b]⟩ : Shape).BroadcastsInDim ⟨2, ![a, b]⟩ ![0, 1])
    (x : (⟨2, ![1, b]⟩ : Shape).Idx → α) (j : (⟨2, ![a, b]⟩ : Shape).Idx) :
    broadcastInDim ⟨2, ![a, b]⟩ ![0, 1] h x j = x (ix2 (0 : Fin 1) (j 1)) :=
  broadcastInDim_apply _ h x j (ix2 (0 : Fin 1) (j 1)) (fun ax => match ax with
    | ⟨0, _⟩ => by
      show 0 = if (1 : ℕ) = 1 then 0 else (j 0).val
      rw [if_pos rfl]
    | ⟨1, _⟩ => by
      show (j 1).val = if b = 1 then 0 else (j 1).val
      split
      · have := (j 1).isLt; simp at this; omega
      · rfl)

/-- A bias: the vector at the column, whatever the row. -/
theorem bias_apply {a b : ℕ} (h1 : (⟨1, ![b]⟩ : Shape).BroadcastsInDim ⟨2, ![1, b]⟩ ![1])
    (h2 : (⟨2, ![1, b]⟩ : Shape).BroadcastsInDim ⟨2, ![a, b]⟩ ![0, 1])
    (x : (⟨1, ![b]⟩ : Shape).Idx → α) (j : (⟨2, ![a, b]⟩ : Shape).Idx) :
    broadcastInDim ⟨2, ![a, b]⟩ ![0, 1] h2 (broadcastInDim ⟨2, ![1, b]⟩ ![1] h1 x) j = x (ix1 (j 1)) :=
  (row_rows_apply h2 _ j).trans (vec_row_apply h1 x _)

/-- A length-a vector as an a by 1 column. -/
theorem vec_col_apply {a : ℕ} (h : (⟨1, ![a]⟩ : Shape).BroadcastsInDim ⟨2, ![a, 1]⟩ ![0])
    (x : (⟨1, ![a]⟩ : Shape).Idx → α) (j : (⟨2, ![a, 1]⟩ : Shape).Idx) :
    broadcastInDim ⟨2, ![a, 1]⟩ ![0] h x j = x (ix1 (j 0)) :=
  broadcastInDim_apply _ h x j (ix1 (j 0)) (fun ax => match ax with
    | ⟨0, _⟩ => by
      show (j 0).val = if a = 1 then 0 else (j 0).val
      split
      · have := (j 0).isLt; simp at this; omega
      · rfl)

/-- An a by 1 column repeated across b columns. -/
theorem col_cols_apply {a b : ℕ} (h : (⟨2, ![a, 1]⟩ : Shape).BroadcastsInDim ⟨2, ![a, b]⟩ ![0, 1])
    (x : (⟨2, ![a, 1]⟩ : Shape).Idx → α) (j : (⟨2, ![a, b]⟩ : Shape).Idx) :
    broadcastInDim ⟨2, ![a, b]⟩ ![0, 1] h x j = x (ix2 (j 0) (0 : Fin 1)) :=
  broadcastInDim_apply _ h x j (ix2 (j 0) (0 : Fin 1)) (fun ax => match ax with
    | ⟨0, _⟩ => by
      show (j 0).val = if a = 1 then 0 else (j 0).val
      split
      · have := (j 0).isLt; simp at this; omega
      · rfl
    | ⟨1, _⟩ => by
      show 0 = if (1 : ℕ) = 1 then 0 else (j 1).val
      rw [if_pos rfl])

/-- A per-row quantity kept as a column and spread over the row. -/
theorem column_apply {a b : ℕ} (h1 : (⟨1, ![a]⟩ : Shape).BroadcastsInDim ⟨2, ![a, 1]⟩ ![0])
    (h2 : (⟨2, ![a, 1]⟩ : Shape).BroadcastsInDim ⟨2, ![a, b]⟩ ![0, 1])
    (x : (⟨1, ![a]⟩ : Shape).Idx → α) (j : (⟨2, ![a, b]⟩ : Shape).Idx) :
    broadcastInDim ⟨2, ![a, b]⟩ ![0, 1] h2 (broadcastInDim ⟨2, ![a, 1]⟩ ![0] h1 x) j = x (ix1 (j 0)) :=
  (col_cols_apply h2 _ j).trans (vec_col_apply h1 x _)

end Idealize.ShloMosaic.HostBroadcast
-- ==== Proof.KernelArrays.lean ====
/-
  The kernel's three output arrays after the run, each as one function of the argument arrays.

  The grid has 16 points; at point t the body sees rows t·1024 … t·1024 + 1023 of the input and of the flags column and
  the whole weights and biases, and writes rows t·1024 … t·1024 + 1023 of each output array. The arrays the region
  finds: the input and the f32 biases as launched; the three weights after a change of float format, which is the
  identity on the extended reals; the flags as a 16384 x 1 column. So what point t writes back is block t of the
  gated mixture's whole-array functions of the arguments, the 16 blocks tile each array, and each array ends as that
  function. The supports leave the region as a column and are reshaped to a vector by the program's last line.
-/
import proofs.«162432_j38208029065733_2_alg».proof.Proof.KernelIdealFramePatched
import proofs.«162432_j38208029065733_2_alg».proof.Proof.KernelRow
import proofs.«162432_j38208029065733_2_alg».proof.Proof.Layer
import proofs.«162432_j38208029065733_2_alg».proof.Proof.LibHostBroadcast
import Idealize.ShloMosaic.Lib.Pipeline.Value
import Idealize.ShloMosaic.Lib.StableHlo.Run

set_option maxRecDepth 16384

noncomputable section

namespace Cert.KernelIdeal.ArrValue

open Cert.KernelIdeal Cert.KernelIdeal.Gen Cert.KernelIdeal.GenP Cert.GatedMix
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The arrays the host wrote before the region -/

/-- The gate weights the region finds: the argument, its change of format being the identity. -/
theorem V_v0 (c : Dev nD) : (V m c main_v0 : S1024x2.Idx → EReal) = m ((c : Thread nD τ).loc main_arg1) := by
  show StableHlo.after hostOps0 (fun b => m (c, b)) (Proc.devRef .tc main_v0) = _
  after_results
  rfl

theorem V_v1 (c : Dev nD) : (V m c main_v1 : S1024x1024.Idx → EReal) = m ((c : Thread nD τ).loc main_arg3) := by
  show StableHlo.after hostOps0 (fun b => m (c, b)) (Proc.devRef .tc main_v1) = _
  after_results
  rfl

theorem V_v2 (c : Dev nD) : (V m c main_v2 : S1024x1024.Idx → EReal) = m ((c : Thread nD τ).loc main_arg5) := by
  show StableHlo.after hostOps0 (fun b => m (c, b)) (Proc.devRef .tc main_v2) = _
  after_results
  rfl

/-- The flags the region finds: the argument vector as a 16384 x 1 column. -/
theorem V_v3 (c : Dev nD) : (V m c main_v3 : S16384x1.Idx → BitVec 32)
    = broadcastInDim S16384x1 ![0] Facts₀.bcast_S16384_S16384x1_0 (m ((c : Thread nD τ).loc main_arg7)) := by
  show StableHlo.after hostOps0 (fun b => m (c, b)) (Proc.devRef .tc main_v3) = _
  after_results

/-! ## The index maps over the grid, and the blocks the body sees -/

theorem hz2 : (![0, 0] : Fin 2 → Nat) = fun _ => 0 := funext fun a => by fin_cases a <;> rfl
theorem hz1 : (![0] : Fin 1 → Nat) = fun _ => 0 := funext fun a => by fin_cases a <;> rfl

/-- The printed index maps, decided over the 16 points: the input, the flags and the three outputs move one block of
    rows per point; the weights and biases stay; the point's grid coordinate is its number. -/
theorem idxA : ∀ t : Fin cfg0.N, t.val < 16 ∧ (grid0.coords t 0).val = t.val :=
  (by decide +kernel : ∀ t : Fin grid0.N, _)
theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 1) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 1) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 1) = 0 :=
  (by decide +kernel : ∀ t : Fin grid0.N, _)
theorem idx8 : ∀ t : Fin cfg0.N, win0_8.index t (0 : Fin 2) = t.val ∧ win0_8.index t (1 : Fin 2) = 0 :=
  (by decide +kernel : ∀ t : Fin grid0.N, _)
theorem idx9 : ∀ t : Fin cfg0.N, win0_9.index t (0 : Fin 2) = t.val ∧ win0_9.index t (1 : Fin 2) = 0 :=
  (by decide +kernel : ∀ t : Fin grid0.N, _)
theorem idx10 : ∀ t : Fin cfg0.N, win0_10.index t (0 : Fin 2) = t.val ∧ win0_10.index t (1 : Fin 2) = 0 :=
  (by decide +kernel : ∀ t : Fin grid0.N, _)

/-- The row of the whole arrays that row p of point t's blocks is. -/
def rowOf (t : Fin cfg0.N) (p : Fin 1024) : Fin 16384 :=
  ⟨t.val * 1024 + p.val, by have := (idxA t).1; have := p.isLt; omega⟩

/-- The input block at point t: rows t·1024 … of the input argument. -/
theorem blk0 (c : Dev nD) (t : Fin cfg0.N) (p k : Fin 1024) :
    iblk m c 0 t (ix2 p k) = m ((c : Thread nD τ).loc main_arg0) (ix2 (rowOf t p) k) := by
  show V m c main_arg0 (((cfg0.win 0).blk t).view.emb (ix2 p k)) = _
  rw [V_main_arg0]
  refine congrArg _ (funext fun a => Fin.ext ?_)
  obtain ⟨e0, e1⟩ := idx0 t
  match a with
  | ⟨0, _⟩ => show win0_0.index t (0 : Fin 2) * 1024 + 1 * p.val = t.val * 1024 + p.val; omega
  | ⟨1, _⟩ => show win0_0.index t (1 : Fin 2) * 1024 + 1 * k.val = k.val; omega

/-- The flags block at point t: the flags of rows t·1024 …. -/
theorem blk1 (c : Dev nD) (t : Fin cfg0.N) (p : Fin 1024) :
    iblk m c 1 t (ix2 p (0 : Fin 1)) = m ((c : Thread nD τ).loc main_arg7) (ix1 (rowOf t p)) := by
  show V m c main_v3 (((cfg0.win 1).blk t).view.emb (ix2 p (0 : Fin 1))) = _
  rw [V_v3]
  refine (HostBroadcast.vec_col_apply Facts₀.bcast_S16384_S16384x1_0 _ _).trans ?_
  refine congrArg _ (funext fun a => Fin.ext ?_)
  obtain ⟨e0, e1⟩ := idx1 t
  match a with
  | ⟨0, _⟩ => show win0_1.index t (0 : Fin 2) * 1024 + 1 * p.val = t.val * 1024 + p.val; omega

/-- The gate weights' block: the whole argument, at every point. -/
theorem blk2 (c : Dev nD) (t : Fin cfg0.N) (k : Fin 1024) (j : Fin 2) :
    iblk m c 2 t (ix2 k j) = m ((c : Thread nD τ).loc main_arg1) (ix2 k j) := by
  show V m c main_v0 (((cfg0.win 2).blk t).view.emb (ix2 k j)) = _
  rw [V_v0]
  refine congrArg _ (funext fun a => Fin.ext ?_)
  obtain ⟨e0, e1⟩ := idx2 t
  match a with
  | ⟨0, _⟩ => show win0_2.index t (0 : Fin 2) * 1024 + 1 * k.val = k.val; omega
  | ⟨1, _⟩ => show win0_2.index t (1 : Fin 2) * 2 + 1 * j.val = j.val; omega

theorem blk3 (c : Dev nD) (t : Fin cfg0.N) (j : Fin 2) :
    iblk m c 3 t (ix1 j) = m ((c : Thread nD τ).loc main_arg2) (ix1 j) := by
  show V m c main_arg2 (((cfg0.win 3).blk t).view.emb (ix1 j)) = _
  rw [V_main_arg2]
  refine congrArg _ (funext fun a => Fin.ext ?_)
  have e0 := idx3 t
  match a with
  | ⟨0, _⟩ => show win0_3.index t (0 : Fin 1) * 2 + 1 * j.val = j.val; omega

theorem blk4 (c : Dev nD) (t : Fin cfg0.N) (k q : Fin 1024) :
    iblk m c 4 t (ix2 k q) = m ((c : Thread nD τ).loc main_arg3) (ix2 k q) := by
  show V m c main_v1 (((cfg0.win 4).blk t).view.emb (ix2 k q)) = _
  rw [V_v1]
  refine congrArg _ (funext fun a => Fin.ext ?_)
  obtain ⟨e0, e1⟩ := idx4 t
  match a with
  | ⟨0, _⟩ => show win0_4.index t (0 : Fin 2) * 1024 + 1 * k.val = k.val; omega
  | ⟨1, _⟩ => show win0_4.index t (1 : Fin 2) * 1024 + 1 * q.val = q.val; omega

theorem blk5 (c : Dev nD) (t : Fin cfg0.N) (q : Fin 1024) :
    iblk m c 5 t (ix1 q) = m ((c : Thread nD τ).loc main_arg4) (ix1 q) := by
  show V m c main_arg4 (((cfg0.win 5).blk t).view.emb (ix1 q)) = _
  rw [V_main_arg4]
  refine congrArg _ (funext fun a => Fin.ext ?_)
  have e0 := idx5 t
  match a with
  | ⟨0, _⟩ => show win0_5.index t (0 : Fin 1) * 1024 + 1 * q.val = q.val; omega

theorem blk6 (c : Dev nD) (t : Fin cfg0.N) (k q : Fin 1024) :
    iblk m c 6 t (ix2 k q) = m ((c : Thread nD τ).loc main_arg5) (ix2 k q) := by
  show V m c main_v2 (((cfg0.win 6).blk t).view.emb (ix2 k q)) = _
  rw [V_v2]
  refine congrArg _ (funext fun a => Fin.ext ?_)
  obtain ⟨e0, e1⟩ := idx6 t
  match a with
  | ⟨0, _⟩ => show win0_6.index t (0 : Fin 2) * 1024 + 1 * k.val = k.val; omega
  | ⟨1, _⟩ => show win0_6.index t (1 : Fin 2) * 1024 + 1 * q.val = q.val; omega

theorem blk7 (c : Dev nD) (t : Fin cfg0.N) (q : Fin 1024) :
    iblk m c 7 t (ix1 q) = m ((c : Thread nD τ).loc main_arg6) (ix1 q) := by
  show V m c main_arg6 (((cfg0.win 7).blk t).view.emb (ix1 q)) = _
  rw [V_main_arg6]
  refine congrArg _ (funext fun a => Fin.ext ?_)
  have e0 := idx7 t
  match a with
  | ⟨0, _⟩ => show win0_7.index t (0 : Fin 1) * 1024 + 1 * q.val = q.val; omega

/-! ## What each point writes back -/

/-- The gate array of the launch memory on core c. -/
def Ggate (c : Dev nD) : S16384x2.Idx → EReal :=
  gateArr (m ((c : Thread nD τ).loc main_arg0)) (m ((c : Thread nD τ).loc main_arg1)) (m ((c : Thread nD τ).loc main_arg2))

/-- The supports of the launch memory on core c, as a column. -/
def Gsup (c : Dev nD) : S16384x1.Idx → EReal :=
  supportCol (m ((c : Thread nD τ).loc main_arg0)) (m ((c : Thread nD τ).loc main_arg5)) (m ((c : Thread nD τ).loc main_arg6))
    (m ((c : Thread nD τ).loc main_arg7))

/-- The mixed output of the launch memory on core c, in the folded arrangement. -/
def Gy (c : Dev nD) : S16384x1024.Idx → EReal :=
  yFolded (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-- Row p of the input block at point t is row t·1024 + p of the input. -/
theorem row_eq (c : Dev nD) (t : Fin cfg0.N) (p : Fin 1024) :
    (fun k : Fin 1024 => iblk m c 0 t (ix2 p k)) = xrow (m ((c : Thread nD τ).loc main_arg0)) (rowOf t p) :=
  funext fun k => blk0 m c t p k

theorem wg_eq (c : Dev nD) (t : Fin cfg0.N) :
    (fun (k : Fin 1024) (j : Fin 2) => iblk m c 2 t (ix2 k j)) = fun k j => m ((c : Thread nD τ).loc main_arg1) (ix2 k j) :=
  funext fun k => funext fun j => blk2 m c t k j

theorem bg_eq (c : Dev nD) (t : Fin cfg0.N) :
    (fun j : Fin 2 => iblk m c 3 t (ix1 j)) = fun j => m ((c : Thread nD τ).loc main_arg2) (ix1 j) :=
  funext fun j => blk3 m c t j

theorem wml_eq (c : Dev nD) (t : Fin cfg0.N) :
    (fun (k q : Fin 1024) => iblk m c 4 t (ix2 k q)) = fun k q => m ((c : Thread nD τ).loc main_arg3) (ix2 k q) :=
  funext fun k => funext fun q => blk4 m c t k q

theorem bml_eq (c : Dev nD) (t : Fin cfg0.N) :
    (fun q : Fin 1024 => iblk m c 5 t (ix1 q)) = fun q => m ((c : Thread nD τ).loc main_arg4) (ix1 q) :=
  funext fun q => blk5 m c t q

theorem wr_eq (c : Dev nD) (t : Fin cfg0.N) :
    (fun (k q : Fin 1024) => iblk m c 6 t (ix2 k q)) = fun k q => m ((c : Thread nD τ).loc main_arg5) (ix2 k q) :=
  funext fun k => funext fun q => blk6 m c t k q

theorem br_eq (c : Dev nD) (t : Fin cfg0.N) :
    (fun q : Fin 1024 => iblk m c 7 t (ix1 q)) = fun q => m ((c : Thread nD τ).loc main_arg6) (ix1 q) :=
  funext fun q => blk7 m c t q

/-- WHAT POINT t WRITES BACK to the gate array is block t of the gate array function. -/
theorem flushed9_eq (c : Dev nD) (t : Fin cfg0.N) :
    (dats m 0 c).flushed 9 t = ((cfg0.win 9).blk t).view.read (Elt Ideal) (Ggate m c) := by
  show (cfg0.win 9).cut (grid0.coords t) ((dats m 0 c).after 9 t) = _
  rw [after0_9]
  unfold out0_9
  rw [View.canon_unit_zero hz2]
  simp only [View.ld_unit_zero (S := S1024x1024) hz2, View.ld_unit_zero (S := S1024x2) hz2, View.ld_unit_zero (S := S2) hz1]
  funext y
  obtain ⟨p, j, rfl⟩ : ∃ (p : Fin 1024) (j : Fin 2), y = ix2 p j := ⟨y 0, y 1, eq_ix2 y⟩
  have e9 : ((cfg0.win 9).blk t).view.emb (ix2 p j) = ix2 (rowOf t p) j := by
    obtain ⟨e0, e1⟩ := idx9 t
    funext a; apply Fin.ext
    match a with
    | ⟨0, _⟩ => show win0_9.index t (0 : Fin 2) * 1024 + 1 * p.val = t.val * 1024 + p.val; omega
    | ⟨1, _⟩ => show win0_9.index t (1 : Fin 2) * 2 + 1 * j.val = j.val; omega
  show k0_pay3 (F := Ideal) (iblk m c 0 t) (iblk m c 2 t) (iblk m c 3 t) (ix2 p j)
    = Ggate m c (((cfg0.win 9).blk t).view.emb (ix2 p j))
  rw [e9]
  refine (RowValue.gate_apply (iblk m c 0 t) (iblk m c 2 t) (iblk m c 3 t) p j).trans ?_
  rw [row_eq, wg_eq, bg_eq]
  rfl

/-- WHAT POINT t WRITES BACK to the supports column is block t of the supports. -/
theorem flushed10_eq (c : Dev nD) (t : Fin cfg0.N) :
    (dats m 0 c).flushed 10 t = ((cfg0.win 10).blk t).view.read (Elt Ideal) (Gsup m c) := by
  show (cfg0.win 10).cut (grid0.coords t) ((dats m 0 c).after 10 t) = _
  rw [after0_10]
  unfold out0_10
  rw [View.canon_unit_zero hz2]
  simp only [View.ld_unit_zero (S := S1024x1024) hz2, View.ld_unit_zero (S := S1024) hz1, View.ld_unit_zero (S := S1024x1) hz2]
  funext y
  obtain ⟨p, u, rfl⟩ : ∃ (p : Fin 1024) (u : Fin 1), y = ix2 p u := ⟨y 0, y 1, eq_ix2 y⟩
  have e10 : ((cfg0.win 10).blk t).view.emb (ix2 p u) = ix2 (rowOf t p) u := by
    obtain ⟨e0, e1⟩ := idx10 t
    funext a; apply Fin.ext
    match a with
    | ⟨0, _⟩ => show win0_10.index t (0 : Fin 2) * 1024 + 1 * p.val = t.val * 1024 + p.val; omega
    | ⟨1, _⟩ => show win0_10.index t (1 : Fin 2) * 1 + 1 * u.val = u.val; omega
  show k0_pay7 (F := Ideal) (iblk m c 0 t) (iblk m c 6 t) (iblk m c 7 t) (iblk m c 1 t) (ix2 p u)
    = Gsup m c (((cfg0.win 10).blk t).view.emb (ix2 p u))
  rw [e10]
  refine (RowValue.support_apply (iblk m c 0 t) (iblk m c 6 t) (iblk m c 7 t) (iblk m c 1 t) p u).trans ?_
  rw [row_eq, wr_eq, br_eq, blk1]
  rfl

/-- The two readings of "first row" give one folded mix. -/
theorem mixFolded_first {sup f1 f2 : Prop} [Decidable sup] [Decidable f1] [Decidable f2] (h : f1 ↔ f2) (g0 g1 Y U : EReal) :
    mixFolded sup f1 g0 g1 Y U = mixFolded sup f2 g0 g1 Y U := by
  unfold mixFolded
  by_cases hf : f1
  · rw [if_pos hf, if_pos (h.mp hf)]
  · rw [if_neg hf, if_neg (fun h2 => hf (h.mpr h2))]

/-- WHAT POINT t WRITES BACK to the mixed output is block t of the folded arrangement. -/
theorem flushed8_eq (c : Dev nD) (t : Fin cfg0.N) :
    (dats m 0 c).flushed 8 t = ((cfg0.win 8).blk t).view.read (Elt Ideal) (Gy m c) := by
  show (cfg0.win 8).cut (grid0.coords t) ((dats m 0 c).after 8 t) = _
  rw [after0_8]
  unfold out0_8
  rw [View.canon_unit_zero hz2]
  simp only [View.ld_unit_zero (S := S1024x1024) hz2, View.ld_unit_zero (S := S1024x2) hz2, View.ld_unit_zero (S := S2) hz1,
    View.ld_unit_zero (S := S1024) hz1, View.ld_unit_zero (S := S1024x1) hz2]
  funext y
  obtain ⟨p, q, rfl⟩ : ∃ (p q : Fin 1024), y = ix2 p q := ⟨y 0, y 1, eq_ix2 y⟩
  have e8 : ((cfg0.win 8).blk t).view.emb (ix2 p q) = ix2 (rowOf t p) q := by
    obtain ⟨e0, e1⟩ := idx8 t
    funext a; apply Fin.ext
    match a with
    | ⟨0, _⟩ => show win0_8.index t (0 : Fin 2) * 1024 + 1 * p.val = t.val * 1024 + p.val; omega
    | ⟨1, _⟩ => show win0_8.index t (1 : Fin 2) * 1024 + 1 * q.val = q.val; omega
  show k0_pay1 (F := Ideal) (BitVec.ofNat 32 (grid0.coords t 0).val) (k0_pay2 (iblk m c 0 t))
      (k0_pay4 (iblk m c 0 t) (iblk m c 2 t) (iblk m c 3 t)) (k0_pay5 (iblk m c 0 t) (iblk m c 2 t) (iblk m c 3 t))
      (k0_pay6 (iblk m c 0 t) (iblk m c 6 t) (iblk m c 7 t) (iblk m c 1 t))
      (k0_pay7 (iblk m c 0 t) (iblk m c 6 t) (iblk m c 7 t) (iblk m c 1 t)) (k0_pay8 (iblk m c 4 t)) (iblk m c 5 t) (ix2 p q)
    = Gy m c (((cfg0.win 8).blk t).view.emb (ix2 p q))
  rw [e8]
  refine (RowValue.y_apply (BitVec.ofNat 32 (grid0.coords t 0).val) (iblk m c 0 t) (iblk m c 1 t) (iblk m c 2 t) (iblk m c 3 t)
    (iblk m c 4 t) (iblk m c 5 t) (iblk m c 6 t) (iblk m c 7 t) p q).trans ?_
  rw [row_eq, wg_eq, bg_eq, wml_eq, bml_eq, wr_eq, br_eq, blk1, (idxA t).2]
  exact mixFolded_first (RowValue.first_iff ⟨t.val, (idxA t).1⟩ p) _ _ _ _

end Cert.KernelIdeal.ArrValue

end
-- ==== Proof.KernelRun.lean ====
/-
  The kernel program's run, read: after it the mixed output, the gate and the supports are the gated mixture's
  arrays of the launch memory, and the arguments are unchanged.

  Each output array is written in 16 blocks of 1024 rows, point t writing rows t·1024 … t·1024 + 1023, so every index is in
  the block of the point (row / 1024) and the array ends as the one function whose blocks the points wrote. The supports
  leave the region as a 16384 x 1 column; the program's last line reshapes the column to a vector, which reads the
  column at (r, 0).
-/
import proofs.«162432_j38208029065733_2_alg».proof.Proof.KernelArrays

set_option maxRecDepth 16384

noncomputable section

namespace Cert.KernelIdeal.ArrValue

open Cert.KernelIdeal Cert.KernelIdeal.Gen Cert.KernelIdeal.GenP Cert.GatedMix
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The blocks tile each array -/

/-- The point whose blocks hold row r. -/
def pointOf (r : ℕ) (h : r < 16384) : Fin cfg0.N := ⟨r / 1024, by show r / 1024 < grid0.N; rw [N_0]; omega⟩

theorem mem_blk8 (t : Fin cfg0.N) (i : S16384x1024.Idx) :
    i ∈ ((cfg0.win 8).blk t).view.set ↔ ∀ a : Fin 2, win0_8.index t a * S1024x1024.size a ≤ (i a).val
      ∧ (i a).val < win0_8.index t a * S1024x1024.size a + S1024x1024.size a := by
  show i ∈ ((View.whole main_v4_0).slice (win0_8.rect t)).set ↔ _
  rw [View.set_slice_whole, Rect.mem_set_unit]
  exact Iff.rfl

theorem mem_blk9 (t : Fin cfg0.N) (i : S16384x2.Idx) :
    i ∈ ((cfg0.win 9).blk t).view.set ↔ ∀ a : Fin 2, win0_9.index t a * S1024x2.size a ≤ (i a).val
      ∧ (i a).val < win0_9.index t a * S1024x2.size a + S1024x2.size a := by
  show i ∈ ((View.whole main_v4_1).slice (win0_9.rect t)).set ↔ _
  rw [View.set_slice_whole, Rect.mem_set_unit]
  exact Iff.rfl

theorem mem_blk10 (t : Fin cfg0.N) (i : S16384x1.Idx) :
    i ∈ ((cfg0.win 10).blk t).view.set ↔ ∀ a : Fin 2, win0_10.index t a * S1024x1.size a ≤ (i a).val
      ∧ (i a).val < win0_10.index t a * S1024x1.size a + S1024x1.size a := by
  show i ∈ ((View.whole main_v4_2).slice (win0_10.rect t)).set ↔ _
  rw [View.set_slice_whole, Rect.mem_set_unit]
  exact Iff.rfl

theorem cover8 (i : S16384x1024.Idx) :
    ∃ t : Fin cfg0.N, (cfg0.win 8).flush t = true ∧ i ∈ ((cfg0.win 8).blk t).view.set := by
  have hi0 : (i 0).val < 16384 := (i 0).isLt
  have hi1 : (i 1).val < 1024 := (i 1).isLt
  obtain ⟨e0, e1⟩ := idx8 (pointOf (i 0).val hi0)
  have ht : (pointOf (i 0).val hi0).val = (i 0).val / 1024 := rfl
  refine ⟨pointOf (i 0).val hi0, flush0_8 _, ?_⟩
  rw [mem_blk8]
  intro a
  match a with
  | ⟨0, _⟩ =>
    show win0_8.index (pointOf (i 0).val hi0) (0 : Fin 2) * 1024 ≤ (i 0).val
      ∧ (i 0).val < win0_8.index (pointOf (i 0).val hi0) (0 : Fin 2) * 1024 + 1024
    omega
  | ⟨1, _⟩ =>
    show win0_8.index (pointOf (i 0).val hi0) (1 : Fin 2) * 1024 ≤ (i 1).val
      ∧ (i 1).val < win0_8.index (pointOf (i 0).val hi0) (1 : Fin 2) * 1024 + 1024
    omega

theorem cover9 (i : S16384x2.Idx) :
    ∃ t : Fin cfg0.N, (cfg0.win 9).flush t = true ∧ i ∈ ((cfg0.win 9).blk t).view.set := by
  have hi0 : (i 0).val < 16384 := (i 0).isLt
  have hi1 : (i 1).val < 2 := (i 1).isLt
  obtain ⟨e0, e1⟩ := idx9 (pointOf (i 0).val hi0)
  have ht : (pointOf (i 0).val hi0).val = (i 0).val / 1024 := rfl
  refine ⟨pointOf (i 0).val hi0, flush0_9 _, ?_⟩
  rw [mem_blk9]
  intro a
  match a with
  | ⟨0, _⟩ =>
    show win0_9.index (pointOf (i 0).val hi0) (0 : Fin 2) * 1024 ≤ (i 0).val
      ∧ (i 0).val < win0_9.index (pointOf (i 0).val hi0) (0 : Fin 2) * 1024 + 1024
    omega
  | ⟨1, _⟩ =>
    show win0_9.index (pointOf (i 0).val hi0) (1 : Fin 2) * 2 ≤ (i 1).val
      ∧ (i 1).val < win0_9.index (pointOf (i 0).val hi0) (1 : Fin 2) * 2 + 2
    omega

theorem cover10 (i : S16384x1.Idx) :
    ∃ t : Fin cfg0.N, (cfg0.win 10).flush t = true ∧ i ∈ ((cfg0.win 10).blk t).view.set := by
  have hi0 : (i 0).val < 16384 := (i 0).isLt
  have hi1 : (i 1).val < 1 := (i 1).isLt
  obtain ⟨e0, e1⟩ := idx10 (pointOf (i 0).val hi0)
  have ht : (pointOf (i 0).val hi0).val = (i 0).val / 1024 := rfl
  refine ⟨pointOf (i 0).val hi0, flush0_10 _, ?_⟩
  rw [mem_blk10]
  intro a
  match a with
  | ⟨0, _⟩ =>
    show win0_10.index (pointOf (i 0).val hi0) (0 : Fin 2) * 1024 ≤ (i 0).val
      ∧ (i 0).val < win0_10.index (pointOf (i 0).val hi0) (0 : Fin 2) * 1024 + 1024
    omega
  | ⟨1, _⟩ =>
    show win0_10.index (pointOf (i 0).val hi0) (1 : Fin 2) * 1 ≤ (i 1).val
      ∧ (i 1).val < win0_10.index (pointOf (i 0).val hi0) (1 : Fin 2) * 1 + 1
    omega

/-! ## The arrays after the region -/

theorem final8 (c : Dev nD) : (dats m 0 c).arrAt 8 cfg0.N = Gy m c :=
  (dats m 0 c).arrAt_eq_of_cover 8 (Gy m c) (fun t _ => flushed8_eq m c t) cover8

theorem final9 (c : Dev nD) : (dats m 0 c).arrAt 9 cfg0.N = Ggate m c :=
  (dats m 0 c).arrAt_eq_of_cover 9 (Ggate m c) (fun t _ => flushed9_eq m c t) cover9

theorem final10 (c : Dev nD) : (dats m 0 c).arrAt 10 cfg0.N = Gsup m c :=
  (dats m 0 c).arrAt_eq_of_cover 10 (Gsup m c) (fun t _ => flushed10_eq m c t) cover10

/-! ## The supports as a vector -/

/-- The supports of the launch memory on core c. -/
def Gsupv (c : Dev nD) : S16384.Idx → EReal :=
  supportArr (m ((c : Thread nD τ).loc main_arg0)) (m ((c : Thread nD τ).loc main_arg5)) (m ((c : Thread nD τ).loc main_arg6))
    (m ((c : Thread nD τ).loc main_arg7))

/-- What the program's last line leaves in its result: the supports column read as a vector. -/
theorem tail5 (c : Dev nD) :
    (Pipeline.afterTail₀ cfgs (dats m) 0 (V0 m) [hostOps1] c main_v5 : S16384.Idx → EReal) = Gsupv m c := by
  unfold Pipeline.afterTail₀
  show StableHlo.after hostOps1 _ (Proc.devRef .tc main_v5) = _
  after_results
  have hcol : Pipeline.withArrays (cfgs 0).spec c (V0 m c) (fun w => (dats m 0 c).arrAt w (cfgs 0).N) (Proc.tc.devRef main_v4_2)
      = Gsup m c :=
    (Pipeline.withArrays_arr spec0 launch0.win.arr_inj c _ _ 10).trans (final10 m c)
  funext i
  obtain ⟨r, rfl⟩ : ∃ r : Fin 16384, i = ix1 r := ⟨i 0, eq_ix1 i⟩
  show shapeCast S16384 (Pipeline.withArrays (cfgs 0).spec c (V0 m c) (fun w => (dats m 0 c).arrAt w (cfgs 0).N)
    (Proc.tc.devRef main_v4_2)) Facts₀.shapeCasts_S16384x1_S16384 (ix1 r) = _
  rw [hcol]
  refine (shapeCast_apply (Gsup m c) Facts₀.shapeCasts_S16384x1_S16384 (ix1 r) (ix2 r (0 : Fin 1)) ?_).trans rfl
  rw [Shape.rowMajor_val_two, Shape.rowMajor_val_one]
  show r.val * 1 + 0 = r.val
  omega

/-! ## The run, read -/

/-- Every weakly fair execution of the program ends with the mixed output, the gate and the supports at the gated
    mixture's arrays of the launch memory, and the eight arguments as launched. -/
theorem run : θ_run defs (onTc (τ := τ) (main (F := Ideal))) ⟨m, fun _ => 0, ρ⟩ (fun r => ∀ c : Dev nD,
      r.2.mem ((c.tc : Thread nD τ).loc main_v4_0) = Gy m c
      ∧ r.2.mem ((c.tc : Thread nD τ).loc main_v4_1) = Ggate m c
      ∧ r.2.mem ((c.tc : Thread nD τ).loc main_v5) = Gsupv m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨((h c).1 8).trans (final8 m c), ((h c).1 9).trans (final9 m c),
      ((h c).2 main_v5 (Pipeline.mem_restRefs_of main_v5 (by decide) (by decide))).trans (tail5 m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 3).trans (((dats m 0 c).arrAt_in 3 rfl _).trans ((A_eq m c 3).trans (V_main_arg2 m c))),
      ((h c).2 main_arg3 (Pipeline.mem_restRefs_of main_arg3 (by decide) (by decide))).trans (W_main_arg3 m (dats m) c),
      ((h c).1 5).trans (((dats m 0 c).arrAt_in 5 rfl _).trans ((A_eq m c 5).trans (V_main_arg4 m c))),
      ((h c).2 main_arg5 (Pipeline.mem_restRefs_of main_arg5 (by decide) (by decide))).trans (W_main_arg5 m (dats m) c),
      ((h c).1 7).trans (((dats m 0 c).arrAt_in 7 rfl _).trans ((A_eq m c 7).trans (V_main_arg6 m c))),
      ((h c).2 main_arg7 (Pipeline.mem_restRefs_of main_arg7 (by decide) (by decide))).trans (W_main_arg7 m (dats m) c)⟩)
    (run_main m ρ)

end Cert.KernelIdeal.ArrValue

end
-- ==== Proof.LibHostReduceRow.lean ====
/-
  The host's one-operand reduce along the rows of a rank-2 array, read at a row, at the ideal instance.

  For an a by b array of extended reals and a commutative associative operation f, the reduce along the second axis
  with an initial value is, at row i, the fold of f from the initial value over the b entries of the row, in no
  particular order: a row's maximum or minimum as a reference's softmax or normalisation takes it (the sum has its
  own reading as a finite sum).
-/
import Idealize.ShloMosaic.PureOps.Ideal.Laws
import Idealize.ShloMosaic.PureOps.Reduce
import Idealize.ShloMosaic.Lib.ValueIdx

noncomputable section

namespace Idealize.ShloMosaic.HostReduceRow

open Idealize.ShloMosaic Idealize.ShloMosaic.ValueIdx

variable {a b : ℕ}

/-- The index a reduction along the second axis puts back: row i, entry j. -/
theorem lift_row (h : (⟨2, ![a, b]⟩ : Shape).Reduces [(1 : Fin 2)] ⟨1, ![a]⟩) (i : Fin a) (j : Fin b) :
    h.lift (ix1 i) j = ix2 i j := by
  funext ax
  apply Fin.ext
  match ax with
  | ⟨0, _⟩ => rfl
  | ⟨1, _⟩ => rfl

/-- The host's reduce of an a by b array along its second axis is, at row i, the fold from the initial value over
    the b entries of the row. -/
theorem host_reduce_row_apply {u : Shape} (f : EReal → EReal → EReal) [Std.Commutative f] [Std.Associative f]
    (x : (⟨2, ![a, b]⟩ : Shape).Idx → EReal) (init : u.Idx → EReal)
    (h' : (⟨2, ![a, b]⟩ : Shape).ReducesTo [(1 : Fin 2)] ⟨1, ![a]⟩) (hu : 0 < u.numel)
    (h : (⟨2, ![a, b]⟩ : Shape).Reduces [(1 : Fin 2)] ⟨1, ![a]⟩) (i : Fin a) :
    Host.reduce f x init h' hu (ix1 i)
      = (Finset.univ : Finset (Fin b)).fold f (init (Shape.Idx.first hu)) (fun j => x (ix2 i j)) := by
  rw [Host.reduce_eq_fold, Shape.ReducesTo.drop_eq_drop h' h, h.fold_filter_drop_single]
  have e : (x ∘ h.lift (ix1 i)) = fun j : Fin b => x (ix2 i j) :=
    funext fun j => congrArg x (lift_row h i j)
  rw [e]
  rfl

end Idealize.ShloMosaic.HostReduceRow

end
-- ==== Proof.RefStages.lean ====
/-
  The reference program's three result arrays are the gated mixture's arrays.

  Each stage of the reference is read at an index whose coordinates are named (a row r of 16384, a column c of 1024
  or a gate j of 2) and identified with the row quantity it computes: the two logits, their maximum from -∞ (a fold
  of max over the two gates), the shifted exponentials and their sum, the softmax weight; the rectified dense output
  times the row's flag, and its row sum; the dense output; and last the two selections, one on "row 0" and one on
  "the row sum is not zero", which together are the branching arrangement of the mixed output.
-/
import proofs.«162432_j38208029065733_2_alg».proof.Proof.Gen.ReferenceIdeal.Read
import proofs.«162432_j38208029065733_2_alg».proof.Proof.Layer
import proofs.«162432_j38208029065733_2_alg».proof.Proof.LibHostReduceRow

noncomputable section

namespace Cert.ReferenceIdeal.RefValue

open Cert.ReferenceIdeal Cert.ReferenceIdeal.Read Cert.GatedMix Idealize.ShloMosaic Idealize.ShloMosaic.ValueIdx

/-! ## The gate -/

section gate
variable (x0 : (⟨S16384x1024, .f32⟩ : BufTy).Contents (Elt Ideal)) (x1 : (⟨S1024x2, .f32⟩ : BufTy).Contents (Elt Ideal))
  (x2 : (⟨S2, .f32⟩ : BufTy).Contents (Elt Ideal))

/-- The two logits of a row. -/
theorem logits_at (r : Fin 16384) (j : Fin 2) :
    val_main_v3 (F := Ideal) x0 x1 x2 (ix2 r j) = logits x0 x1 x2 r j := by
  rw [val_main_v3_apply, val_main_v0_apply, val_main_v2_apply, val_main_v1_apply, Ideal.addf_def]
  show _ = (∑ k : Fin 1024, x0 (ix2 r k) * x1 (ix2 k j)) + x2 (ix1 j)
  refine congrArg₂ (· + ·) (Finset.sum_congr rfl fun k _ => congrArg₂ (· * ·) (congrArg x0 ?_) (congrArg x1 ?_))
    (congrArg x2 ?_)
  · exact funext fun a => Fin.ext (by match a with | ⟨0, _⟩ => rfl | ⟨1, _⟩ => rfl)
  · exact funext fun a => Fin.ext (by match a with | ⟨0, _⟩ => rfl | ⟨1, _⟩ => rfl)
  · exact funext fun a => Fin.ext (by match a with | ⟨0, _⟩ => rfl)

/-- The fold of max over a row's two logits, from -∞. -/
theorem fold_at (r : Fin 16384) :
    val_main_v4 (F := Ideal) x0 x1 x2 (ix1 r)
      = (Finset.univ : Finset (Fin 2)).fold max negInf (logits x0 x1 x2 r) := by
  unfold val_main_v4
  refine (HostReduceRow.host_reduce_row_apply (a := 16384) (b := 2) max _ _ _ _ (by decide) r).trans ?_
  have e : (fun j : Fin 2 => val_main_v3 (F := Ideal) x0 x1 x2 (ix2 r j)) = logits x0 x1 x2 r :=
    funext fun j => logits_at x0 x1 x2 r j
  rw [e, val_main_cst_apply]
  rfl

/-- The row maximum. -/
theorem rowmax_at (r : Fin 16384) :
    val_main_v6 (F := Ideal) x0 x1 x2 (ix1 r) = rowMax negInf (logits x0 x1 x2 r) := by
  rw [val_main_v6_apply, val_main_v5_apply, val_main_cst_0_apply, fold_at, Ideal.maximumf_def]
  rfl

/-- The shifted exponential of a logit. -/
theorem exp_at (r : Fin 16384) (j : Fin 2) :
    val_main_v10 (F := Ideal) x0 x1 x2 (ix2 r j)
      = Ideal.exp (logits x0 x1 x2 r j - rowMax negInf (logits x0 x1 x2 r)) := by
  rw [val_main_v10_apply, val_main_v9_apply, val_main_v8_apply, val_main_v7_apply, logits_at,
    Ideal.hostUnary_exp_def, Ideal.subf_def]
  have e : idx_main_v7 (idx_main_v8 (ix2 r j)) = ix1 r :=
    funext fun a => Fin.ext (by match a with | ⟨0, _⟩ => rfl)
  rw [e, rowmax_at]

/-- The sum of a row's two shifted exponentials. -/
theorem expsum_at (r : Fin 16384) :
    val_main_v11 (F := Ideal) x0 x1 x2 (ix1 r)
      = ∑ j' : Fin 2, Ideal.exp (logits x0 x1 x2 r j' - rowMax negInf (logits x0 x1 x2 r)) := by
  rw [val_main_v11_apply, val_main_cst_1_apply, Ideal.ofBits_def, Ideal.ofBits_zero_f32, zero_add]
  refine Finset.sum_congr rfl fun k _ => ?_
  have e : idx_main_v11 (ix1 r) k = ix2 r k :=
    funext fun a => Fin.ext (by match a with | ⟨0, _⟩ => rfl | ⟨1, _⟩ => rfl)
  rw [e, exp_at]

/-- The softmax weight. -/
theorem gate_at (r : Fin 16384) (j : Fin 2) :
    val_main_v14 (F := Ideal) x0 x1 x2 (ix2 r j) = gateAt x0 x1 x2 r j := by
  rw [val_main_v14_apply, val_main_v13_apply, val_main_v12_apply, exp_at, Ideal.hostDivf_def]
  have e : idx_main_v12 (idx_main_v13 (ix2 r j)) = ix1 r :=
    funext fun a => Fin.ext (by match a with | ⟨0, _⟩ => rfl)
  rw [e, expsum_at]
  rfl

theorem gate_eq : val_main_v14 (F := Ideal) x0 x1 x2 = gateArr x0 x1 x2 := by
  funext i
  obtain ⟨r, j, rfl⟩ : ∃ (r : Fin 16384) (j : Fin 2), i = ix2 r j := ⟨i 0, i 1, eq_ix2 i⟩
  exact gate_at x0 x1 x2 r j

end gate

/-! ## The support -/

section support
variable (x0 : (⟨S16384x1024, .f32⟩ : BufTy).Contents (Elt Ideal)) (x5 : (⟨S1024x1024, .f32⟩ : BufTy).Contents (Elt Ideal))
  (x6 : (⟨S1024, .f32⟩ : BufTy).Contents (Elt Ideal)) (x7 : (⟨S16384, .i32⟩ : BufTy).Contents (Elt Ideal))

/-- The rectified dense output: the larger of the dense output and zero. -/
theorem relu_at (r : Fin 16384) (c : Fin 1024) :
    val_main_v19 (F := Ideal) x0 x5 x6 (ix2 r c)
      = max (dense (xrow x0 r) (fun k c => x5 (ix2 k c)) (fun c => x6 (ix1 c)) c) 0 := by
  rw [val_main_v19_apply, val_main_v18_apply, val_main_v15_apply, val_main_v17_apply, val_main_v16_apply,
    val_main_call0_v0_apply, val_main_call0_cst_apply, Ideal.maximumf_def, Ideal.addf_def, Ideal.ofBits_def,
    Ideal.ofBits_zero_f32]
  show _ = max ((∑ k : Fin 1024, x0 (ix2 r k) * x5 (ix2 k c)) + x6 (ix1 c)) 0
  refine congrArg (max · 0) (congrArg₂ (· + ·)
    (Finset.sum_congr rfl fun k _ => congrArg₂ (· * ·) (congrArg x0 ?_) (congrArg x5 ?_)) (congrArg x6 ?_))
  · exact funext fun a => Fin.ext (by match a with | ⟨0, _⟩ => rfl | ⟨1, _⟩ => rfl)
  · exact funext fun a => Fin.ext (by match a with | ⟨0, _⟩ => rfl | ⟨1, _⟩ => rfl)
  · exact funext fun a => Fin.ext (by match a with | ⟨0, _⟩ => rfl)

/-- The row's flag, spread along the row, as a real number. -/
theorem flag_at (r : Fin 16384) (c : Fin 1024) :
    val_main_v22 (F := Ideal) x7 (ix2 r c) = flag x7 r := by
  rw [val_main_v22_apply, val_main_v21_apply, val_main_v20_apply]
  have e : idx_main_v20 (idx_main_v22 (ix2 r c)) = ix1 r :=
    funext fun a => Fin.ext (by match a with | ⟨0, _⟩ => rfl)
  rw [e]
  rfl

/-- The masked rectified dense output. -/
theorem rule_at (r : Fin 16384) (c : Fin 1024) :
    val_main_v23 (F := Ideal) x0 x5 x6 x7 (ix2 r c) = ruleAt x0 x5 x6 x7 r c := by
  rw [val_main_v23_apply, relu_at, flag_at, Ideal.mulf_def]
  rfl

/-- The row sum of the masked rectified dense outputs. -/
theorem support_at (r : Fin 16384) :
    val_main_v24 (F := Ideal) x0 x5 x6 x7 (ix1 r) = supportAt x0 x5 x6 x7 r := by
  rw [val_main_v24_apply, val_main_cst_2_apply, Ideal.ofBits_def, Ideal.ofBits_zero_f32, zero_add]
  show _ = ∑ c : Fin 1024, ruleAt x0 x5 x6 x7 r c
  refine Finset.sum_congr rfl fun k _ => ?_
  have e : idx_main_v24 (ix1 r) k = ix2 r k :=
    funext fun a => Fin.ext (by match a with | ⟨0, _⟩ => rfl | ⟨1, _⟩ => rfl)
  rw [e, rule_at]

theorem support_eq : val_main_v24 (F := Ideal) x0 x5 x6 x7 = supportArr x0 x5 x6 x7 := by
  funext i
  obtain ⟨r, rfl⟩ : ∃ r : Fin 16384, i = ix1 r := ⟨i 0, eq_ix1 i⟩
  exact support_at x0 x5 x6 x7 r

end support

/-! ## The mixed output -/

/-- "Not equal to zero" as a one-bit word, when it holds. -/
theorem cmp_une_pos {s : EReal} (h : s ≠ 0) : Ideal.cmp .une s 0 = 1#1 := by
  unfold Ideal.cmp
  dsimp only
  rw [decide_eq_true h]
  rfl

/-- "Not equal to zero" as a one-bit word, when it fails. -/
theorem cmp_une_neg {s : EReal} (h : ¬s ≠ 0) : Ideal.cmp .une s 0 = 0#1 := by
  unfold Ideal.cmp
  dsimp only
  rw [decide_eq_false h]
  rfl

section y
variable (x0 : (⟨S16384x1024, .f32⟩ : BufTy).Contents (Elt Ideal)) (x1 : (⟨S1024x2, .f32⟩ : BufTy).Contents (Elt Ideal))
  (x2 : (⟨S2, .f32⟩ : BufTy).Contents (Elt Ideal)) (x3 : (⟨S1024x1024, .f32⟩ : BufTy).Contents (Elt Ideal))
  (x4 : (⟨S1024, .f32⟩ : BufTy).Contents (Elt Ideal)) (x5 : (⟨S1024x1024, .f32⟩ : BufTy).Contents (Elt Ideal))
  (x6 : (⟨S1024, .f32⟩ : BufTy).Contents (Elt Ideal)) (x7 : (⟨S16384, .i32⟩ : BufTy).Contents (Elt Ideal))

/-- The dense output. -/
theorem yml_at (r : Fin 16384) (c : Fin 1024) :
    val_main_v28 (F := Ideal) x0 x3 x4 (ix2 r c) = ymlAt x0 x3 x4 r c := by
  rw [val_main_v28_apply, val_main_v25_apply, val_main_v27_apply, val_main_v26_apply, Ideal.addf_def]
  show _ = (∑ k : Fin 1024, x0 (ix2 r k) * x3 (ix2 k c)) + x4 (ix1 c)
  refine congrArg₂ (· + ·) (Finset.sum_congr rfl fun k _ => congrArg₂ (· * ·) (congrArg x0 ?_) (congrArg x3 ?_))
    (congrArg x4 ?_)
  · exact funext fun a => Fin.ext (by match a with | ⟨0, _⟩ => rfl | ⟨1, _⟩ => rfl)
  · exact funext fun a => Fin.ext (by match a with | ⟨0, _⟩ => rfl | ⟨1, _⟩ => rfl)
  · exact funext fun a => Fin.ext (by match a with | ⟨0, _⟩ => rfl)

/-- The first softmax weight, kept as a column. -/
theorem g0_col (r : Fin 16384) :
    val_main_v29 (F := Ideal) x0 x1 x2 (ix2 r (0 : Fin 1)) = gateAt x0 x1 x2 r 0 := by
  rw [val_main_v29_apply]
  have e : idx_main_v29 (ix2 r (0 : Fin 1)) = ix2 r (0 : Fin 2) :=
    funext fun a => Fin.ext (by match a with | ⟨0, _⟩ => rfl | ⟨1, _⟩ => rfl)
  rw [e, gate_at]

/-- The second softmax weight, kept as a column. -/
theorem g1_col (r : Fin 16384) :
    val_main_v30 (F := Ideal) x0 x1 x2 (ix2 r (0 : Fin 1)) = gateAt x0 x1 x2 r 1 := by
  rw [val_main_v30_apply]
  have e : idx_main_v30 (ix2 r (0 : Fin 1)) = ix2 r (1 : Fin 2) :=
    funext fun a => Fin.ext (by match a with | ⟨0, _⟩ => rfl | ⟨1, _⟩ => rfl)
  rw [e, gate_at]

theorem v31_at (r : Fin 16384) (c : Fin 1024) :
    val_main_v31 (F := Ideal) x0 x1 x2 (ix2 r c) = gateAt x0 x1 x2 r 0 := by
  rw [val_main_v31_apply]
  have e : idx_main_v31 (ix2 r c) = ix2 r (0 : Fin 1) :=
    funext fun a => Fin.ext (by match a with | ⟨0, _⟩ => rfl | ⟨1, _⟩ => rfl)
  rw [e, g0_col]

theorem v39_at (r : Fin 16384) (c : Fin 1024) :
    val_main_v39 (F := Ideal) x0 x1 x2 (ix2 r c) = gateAt x0 x1 x2 r 0 := by
  rw [val_main_v39_apply]
  have e : idx_main_v39 (ix2 r c) = ix2 r (0 : Fin 1) :=
    funext fun a => Fin.ext (by match a with | ⟨0, _⟩ => rfl | ⟨1, _⟩ => rfl)
  rw [e, g0_col]

theorem v33_at (r : Fin 16384) (c : Fin 1024) :
    val_main_v33 (F := Ideal) x0 x1 x2 (ix2 r c) = gateAt x0 x1 x2 r 1 := by
  rw [val_main_v33_apply]
  have e : idx_main_v33 (ix2 r c) = ix2 r (0 : Fin 1) :=
    funext fun a => Fin.ext (by match a with | ⟨0, _⟩ => rfl | ⟨1, _⟩ => rfl)
  rw [e, g1_col]

theorem v36_at (r : Fin 16384) (c : Fin 1024) :
    val_main_v36 (F := Ideal) x0 x1 x2 (ix2 r c) = gateAt x0 x1 x2 r 1 := by
  rw [val_main_v36_apply]
  have e : idx_main_v36 (ix2 r c) = ix2 r (0 : Fin 1) :=
    funext fun a => Fin.ext (by match a with | ⟨0, _⟩ => rfl | ⟨1, _⟩ => rfl)
  rw [e, g1_col]

/-- The mix of row 0: g0·Y + g1·U. -/
theorem mixfirst_at (r : Fin 16384) (c : Fin 1024) :
    val_main_v35 (F := Ideal) x0 x1 x2 x3 x4 x5 x6 x7 (ix2 r c)
      = gateAt x0 x1 x2 r 0 * ymlAt x0 x3 x4 r c + gateAt x0 x1 x2 r 1 * ruleAt x0 x5 x6 x7 r c := by
  rw [val_main_v35_apply, val_main_v32_apply, val_main_v34_apply, v31_at, v33_at, yml_at, rule_at]
  rfl

/-- The mix of every other row: g0·(Y + g1·U). -/
theorem mixrest_at (r : Fin 16384) (c : Fin 1024) :
    val_main_v40 (F := Ideal) x0 x1 x2 x3 x4 x5 x6 x7 (ix2 r c)
      = gateAt x0 x1 x2 r 0 * (ymlAt x0 x3 x4 r c + gateAt x0 x1 x2 r 1 * ruleAt x0 x5 x6 x7 r c) := by
  rw [val_main_v40_apply, val_main_v38_apply, val_main_v37_apply, v39_at, v36_at, yml_at, rule_at]
  rfl

/-- The test "this is row 0", spread along the row. -/
theorem first_at (r : Fin 16384) (c : Fin 1024) :
    val_main_call1_v0 (F := Ideal) (ix2 r c) = if r.val = 0 then 1#1 else 0#1 := by
  rw [val_main_call1_v0_apply, val_main_v44_apply, val_main_v43_apply, val_main_v41_apply, val_main_v42_apply,
    val_main_c_apply]
  show BitVec.ofBool (BitVec.ofNat 32 r.val == 0#32) = _
  have hr : r.val < 16384 := r.isLt
  by_cases h : r.val = 0
  · rw [if_pos h, h]
    rfl
  · rw [if_neg h]
    have hne : (BitVec.ofNat 32 r.val == 0#32) = false := by
      refine beq_eq_false_iff_ne.mpr fun he => h ?_
      have h2 := congrArg BitVec.toNat he
      rw [BitVec.toNat_ofNat, BitVec.toNat_ofNat] at h2
      omega
    rw [hne]
    rfl

/-- The test "the row's support is not zero", spread along the row. -/
theorem sup_at (r : Fin 16384) (c : Fin 1024) :
    val_main_call2_v0 (F := Ideal) x0 x5 x6 x7 (ix2 r c) = Ideal.cmp .une (supportAt x0 x5 x6 x7 r) 0 := by
  rw [val_main_call2_v0_apply, val_main_v48_apply, val_main_v47_apply, val_main_v46_apply, val_main_cst_3_apply,
    Ideal.ofBits_def, Ideal.ofBits_zero_f32]
  have e : idx_main_v48 (idx_main_call2_v0 (ix2 r c)) = ix1 r :=
    funext fun a => Fin.ext (by match a with | ⟨0, _⟩ => rfl)
  rw [e, support_at]
  rfl

/-- The two selections are the branching arrangement of the mixed output. -/
theorem y_at (r : Fin 16384) (c : Fin 1024) :
    val_main_v49 (F := Ideal) x0 x1 x2 x3 x4 x5 x6 x7 (ix2 r c) = yBranchAt x0 x1 x2 x3 x4 x5 x6 x7 r c := by
  rw [val_main_v49_apply, val_main_v45_apply, sup_at, first_at, mixfirst_at, mixrest_at, yml_at]
  unfold yBranchAt mixBranch
  by_cases hs : supportAt x0 x5 x6 x7 r ≠ 0
  · rw [cmp_une_pos hs, select_one, if_pos hs]
    by_cases hf : r.val = 0
    · rw [if_pos hf, if_pos hf, select_one]
    · rw [if_neg hf, if_neg hf, select_zero]
  · rw [cmp_une_neg hs, select_zero, if_neg hs]

theorem y_eq : val_main_v49 (F := Ideal) x0 x1 x2 x3 x4 x5 x6 x7 = yBranch x0 x1 x2 x3 x4 x5 x6 x7 := by
  funext i
  obtain ⟨r, c, rfl⟩ : ∃ (r : Fin 16384) (c : Fin 1024), i = ix2 r c := ⟨i 0, i 1, eq_ix2 i⟩
  exact y_at x0 x1 x2 x3 x4 x5 x6 x7 r c

end y

end Cert.ReferenceIdeal.RefValue

end
-- ==== Proof.LibFiniteEntry.lean ====
/-
  One "every entry is finite" test of a precondition, read back at an entry.

  A precondition "all float inputs are finite" is, per input, an and-reduction over all axes of the entrywise
  comparison |v| < +∞ (the bound the word 0x7F800000), started from true. When such a reduction is true every
  entry's comparison is true, and an extended real v with max(v, -v) < +∞ is neither +∞ nor -∞: it is a real number.
-/
import Idealize.ShloMosaic.PureOps.Ideal
import Idealize.ShloMosaic.Lib.ReduceAll
import Idealize.ShloMosaic.Lib.ValueIdx
import Idealize.ShloMosaic.Lib.IdealHost

noncomputable section

namespace Cert.Lib.FiniteEntry

open Idealize.ShloMosaic Idealize.ShloMosaic.ValueIdx

/-- The comparison bound's word denotes +∞. -/
theorem inf_eq : Ideal.ofBits .f32 0x7F800000#32 = ⊤ := by
  simp [Ideal.ofBits, Ideal.ieee]

/-- |v| < +∞ came out true: v is a real number. -/
theorem real_of_abs_lt_inf (v : EReal)
    (h : FloatOps.cmpf (F := Ideal) (φ := .f32) .olt (FloatOps.hostAbsf v) (Ideal.ofBits .f32 0x7F800000#32) = 1#1) :
    ∃ r : ℝ, v = (r : EReal) := by
  have hlt : max v (-v) < ⊤ := by
    by_contra hn
    have h0 : FloatOps.cmpf (F := Ideal) (φ := .f32) .olt (FloatOps.hostAbsf v) (Ideal.ofBits .f32 0x7F800000#32) = 0#1 := by
      show BitVec.ofBool (decide (max v (-v) < Ideal.ofBits .f32 0x7F800000#32)) = 0#1
      rw [inf_eq, decide_eq_false hn]
      rfl
    rw [h0] at h
    exact absurd h (by decide)
  have h1 : v ≠ ⊤ := fun e => by rw [e] at hlt; simp at hlt
  have h2 : v ≠ ⊥ := fun e => by rw [e] at hlt; simp at hlt
  exact ⟨v.toReal, (EReal.coe_toReal h1 h2).symm⟩

/-- A rank-0 array has one index. -/
instance : Subsingleton (⟨0, ![]⟩ : Shape).Idx := ⟨fun a b => funext fun d => d.elim0⟩

/-- The whole test read back: if the and-reduction over all axes of "|a| < +∞" (the bound broadcast from a scalar
    constant) is true, every entry of a is a real number. -/
theorem all_real {s : Shape} {axes : List (Fin s.rank)} (a : FVec Ideal s .f32)
    (hb : (⟨0, ![]⟩ : Shape).BroadcastsInDim s ![]) (hr : s.ReducesTo axes ⟨0, ![]⟩) (hn : 0 < (⟨0, ![]⟩ : Shape).numel)
    (init : IVec ⟨0, ![]⟩ 1)
    (h : Host.reduce IntOp.andi
        (cmpf .olt (Host.absf a) (broadcastInDim s ![] hb (constant (F := Ideal) ⟨0, ![]⟩ .f32 0x7F800000#32))) init hr hn ix0 = 1#1)
    (i : s.Idx) : ∃ r : ℝ, a i = (r : EReal) := by
  have e := Host.reduce_andi_all _ _ _ _ ix0 h i
  rw [cmpf_apply, broadcastInDim_scalar_apply] at e
  exact real_of_abs_lt_inf (a i) e

end Cert.Lib.FiniteEntry

end
-- ==== Proof.FiniteInputs.lean ====
/-
  The precondition "every float input is finite", read back entry by entry.

  The precondition is a conjunction of seven tests, one per float argument; each test is the and-reduction over all
  axes of the entrywise comparison |a| < +∞. When the conjunction is true each of the seven reductions is true, and
  a true reduction says that every entry of its argument is neither +∞ nor -∞: a real number.
-/
import proofs.«162432_j38208029065733_2_alg».proof.Pre_finite_inputs
import proofs.«162432_j38208029065733_2_alg».proof.Proof.LibFiniteEntry
import proofs.«162432_j38208029065733_2_alg».proof.Proof.GatedMix

noncomputable section

namespace Cert.GatedMix.Finite

open Idealize.ShloMosaic Cert.Pre_finite_inputs

/-- If the precondition holds, every entry of each of the seven float arguments is a real number. -/
theorem real_entries [Cert.Pre_finite_inputs.Facts]
    (a0 : FVec Ideal S16384x1024 .f32) (a1 : FVec Ideal S1024x2 .f32) (a2 : FVec Ideal S2 .f32) (a3 : FVec Ideal S1024x1024 .f32)
    (a4 : FVec Ideal S1024 .f32) (a5 : FVec Ideal S1024x1024 .f32) (a6 : FVec Ideal S1024 .f32) (a7 : IVec S16384 32)
    (h : Cert.Pre_finite_inputs.fn (F := Ideal) a0 a1 a2 a3 a4 a5 a6 a7 = fun _ => 1#1) :
    (∀ i, Cert.GatedMix.IsReal (a0 i)) ∧ (∀ i, Cert.GatedMix.IsReal (a1 i)) ∧ (∀ i, Cert.GatedMix.IsReal (a2 i)) ∧ (∀ i, Cert.GatedMix.IsReal (a3 i))
      ∧ (∀ i, Cert.GatedMix.IsReal (a4 i)) ∧ (∀ i, Cert.GatedMix.IsReal (a5 i)) ∧ (∀ i, Cert.GatedMix.IsReal (a6 i)) := by
  -- the rank-0 result at its one index: a six-fold conjunction of the seven tests, nested to the left
  have h0 := congrFun h ValueIdx.ix0
  dsimp only [fn, fn_part1, andi] at h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  -- each test read back at an entry
  exact ⟨Cert.Lib.FiniteEntry.all_real a0 _ _ _ _ e0, Cert.Lib.FiniteEntry.all_real a1 _ _ _ _ e1,
    Cert.Lib.FiniteEntry.all_real a2 _ _ _ _ e2, Cert.Lib.FiniteEntry.all_real a3 _ _ _ _ e3,
    Cert.Lib.FiniteEntry.all_real a4 _ _ _ _ e4, Cert.Lib.FiniteEntry.all_real a5 _ _ _ _ e5,
    Cert.Lib.FiniteEntry.all_real a6 _ _ _ _ e6⟩

end Cert.GatedMix.Finite

end
-- ==== Proof.lean ====
/-
  A two-expert gated mixture layer: a tiled kernel against its plain reference, equal on the extended reals.

  For every row r of the input x (16384 rows of length 1024) the layer computes two logits x(r,·)·Wg + bg and their
  softmax (g0, g1); a dense output y_ml = x(r,·)·Wml + bml; a rectified dense output masked by the row's integer flag,
  y_rule = max(x(r,·)·Wr + br, 0)·flag(r); and the row's support Σ_c y_rule(c). The three results are the mixed output
  y, the softmax weights and the supports. The reference mixes by branching — a supported row (support ≠ 0) gets
  g0·y_ml + g1·y_rule if it is row 0 and g0·(y_ml + g1·y_rule) otherwise, an unsupported row gets y_ml — and the kernel,
  which processes 1024 rows per grid point with the weights resident, by the folded form
  (if supported then g0 else 1)·y_ml + (if row 0 then g1 else g0·g1)·y_rule.

  At the ideal instance a change of float format is the identity, a matrix product into a zero accumulator and the
  host's contraction are the same finite sum, and a lane reduction and the host's reduce are the same sum or fold of
  max, so the softmax weights and the supports are the same functions of the arguments on both sides with no
  algebra at all. The two forms of y agree where every float input is finite: then g0 is a nonnegative real, which
  distributes over the sum y_ml + g1·y_rule (an infinite factor would not), and on an unsupported row y_rule vanishes
  entry by entry, because its entries are nonnegative rectified values times ONE real flag for the whole row, so a
  zero row sum forces the flag or every rectified value to be zero. The integer flags may be anything.

  The modules: GatedMix (the row quantities and the two laws), Layer (the result arrays as functions of the
  argument arrays), KernelRow (the kernel body's stored values entry by entry), KernelArrays and KernelRun (what each
  grid point writes back, the blocks tiling each array, the run), RefStages (the reference's stages are the same
  arrays), FiniteInputs (the precondition read back entry by entry).
-/
import proofs.«162432_j38208029065733_2_alg».proof.Defs
import proofs.«162432_j38208029065733_2_alg».proof.Proof.Gen.Kernel
import proofs.«162432_j38208029065733_2_alg».proof.Proof.KernelFramePatched
import proofs.«162432_j38208029065733_2_alg».proof.Proof.Gen.KernelIdeal
import proofs.«162432_j38208029065733_2_alg».proof.Proof.KernelIdealFramePatched
import proofs.«162432_j38208029065733_2_alg».proof.Proof.Gen.ReferenceIdeal
import proofs.«162432_j38208029065733_2_alg».proof.Proof.Gen.ReferenceIdeal.Run
import proofs.«162432_j38208029065733_2_alg».proof.Proof.Gen.ReferenceIdeal.Read
import proofs.«162432_j38208029065733_2_alg».proof.Proof.Gen.Pre_finite_inputs
import proofs.«162432_j38208029065733_2_alg».proof.Proof.KernelRun
import proofs.«162432_j38208029065733_2_alg».proof.Proof.RefStages
import proofs.«162432_j38208029065733_2_alg».proof.Proof.FiniteInputs
import Idealize.ShloMosaic.Adequacy
import Idealize.ShloMosaic.Init

noncomputable section

namespace Cert.Proof

open Idealize.ShloMosaic Idealize.SL.Sem

/-- The kernel as printed runs, and leaves its arguments as launched. -/
theorem frame_k : Cert.frame_Kernel := fun m ρ _ => Cert.Kernel.GenP.frame m ρ

/-- The idealized kernel runs, and leaves its arguments as launched. -/
theorem frame_ki : Cert.frame_KernelIdeal := fun m ρ _ => Cert.KernelIdeal.GenP.frame m ρ

/-- The idealized reference runs, and leaves its arguments as launched: its run with the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- From memories agreeing on the arguments, all of whose float entries are finite, the idealized kernel and the
    idealized reference end with the same three arrays: the gate and the supports are the same functions on both
    sides, and the kernel's folded mix is the reference's branching mix. -/
theorem algebraic : Cert.algebraic_KernelIdeal_ReferenceIdeal := by
  intro m ρ m' ρ' hpre hagree
  refine ⟨fun c => Cert.KernelIdeal.ArrValue.Gy m c, fun c => Cert.KernelIdeal.ArrValue.Ggate m c,
    fun c => Cert.KernelIdeal.ArrValue.Gsupv m c, Cert.KernelIdeal.ArrValue.run m ρ, ?_⟩
  refine (θ_run Cert.ReferenceIdeal.defs _ _).mono (fun _ h c => ⟨?_, ?_, ?_, (h c).2.2.2⟩)
    (Cert.ReferenceIdeal.Value.run (F := Ideal) m' ρ')
  · obtain ⟨a0, a1, a2, a3, a4, a5, a6, a7⟩ := hagree c
    obtain ⟨r0, r1, r2, _, _, r5, r6⟩ := Cert.GatedMix.Finite.real_entries _ _ _ _ _ _ _ _ (hpre c)
    refine (h c).1.trans ((Cert.ReferenceIdeal.Read.val_main_v49_eq m' c).trans
      ((Cert.ReferenceIdeal.RefValue.y_eq _ _ _ _ _ _ _ _).trans ?_))
    rw [a0, a1, a2, a3, a4, a5, a6, a7]
    exact (Cert.GatedMix.yFolded_eq_yBranch _ _ _ _ _ _ _ _ r0 r1 r2 r5 r6).symm
  · obtain ⟨a0, a1, a2, _⟩ := hagree c
    refine (h c).2.1.trans ((Cert.ReferenceIdeal.Read.val_main_v14_eq _ _ _).trans
      ((Cert.ReferenceIdeal.RefValue.gate_eq _ _ _).trans ?_))
    rw [a0, a1, a2]
    rfl
  · obtain ⟨a0, _, _, _, _, a5, a6, a7⟩ := hagree c
    refine (h c).2.2.1.trans ((Cert.ReferenceIdeal.Read.val_main_v24_eq _ _ _ _).trans
      ((Cert.ReferenceIdeal.RefValue.support_eq _ _ _ _).trans ?_))
    rw [a0, a5, a6, a7]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
